-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x2048x1024 : Shape := ⟨3, ![32, 2048, 1024]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1024x1 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1 .f32 := Host.absf main_arg4
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S32x1024 .f32) (main_arg1 : FVec F S32x2048x1024 .f32) (main_arg2 : FVec F S2048x1024 .f32) (main_arg3 : FVec F S1024 .f32) (main_arg4 : FVec F S1024x1 .f32) (main_arg5 : FVec F S1 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S32x1024 : Shape := ⟨2, ![32, 1024]⟩
abbrev S32x2048x1024 : Shape := ⟨3, ![32, 2048, 1024]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S1024x1024 : Shape := ⟨2, ![1024, 1024]⟩
abbrev S32x1x1024 : Shape := ⟨3, ![32, 1, 1024]⟩
abbrev S1x1x1024 : Shape := ⟨3, ![1, 1, 1024]⟩
abbrev S1x512x1024 : Shape := ⟨3, ![1, 512, 1024]⟩
abbrev S1x1 : Shape := ⟨2, ![1, 1]⟩
abbrev S1x1024 : Shape := ⟨2, ![1, 1024]⟩
abbrev S512x1024 : Shape := ⟨2, ![512, 1024]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S2048x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S1024x1024, .f32⟩
  | .hbm, ⟨7, _⟩ => ⟨S1024x1024, .f32⟩
  | .hbm, ⟨8, _⟩ => ⟨S32x1024, .f32⟩
  | .hbm, ⟨9, _⟩ => ⟨S32x1x1024, .f32⟩
  | .hbm, ⟨10, _⟩ => ⟨S1024x1024, .bf16⟩
  | .hbm, ⟨11, _⟩ => ⟨S32x1x1024, .f32⟩
  | .hbm, ⟨12, _⟩ => ⟨S32x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024, .f32⟩
  | .local _ .vmem, ⟨6, _⟩ => ⟨S1024x1, .f32⟩
  | .local _ .vmem, ⟨7, _⟩ => ⟨S1, .f32⟩
  | .local _ .vmem, ⟨8, _⟩ => ⟨S1x1x1024, .f32⟩
  | .local _ .vmem, ⟨9, _⟩ => ⟨S1x1x1024, .f32⟩
  | .local _ .vmem, ⟨10, _⟩ => ⟨S1x1, .f32⟩
  | .local _ .vmem, ⟨11, _⟩ => ⟨S1x1, .f32⟩
  | .local _ .vmem, ⟨12, _⟩ => ⟨S1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_28 : BitVec 32 := 0#32
  let v57 : BitVec 1 := Scalar.cmpi .ne v56 c0_i32_28
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2048x1024_S1024x1024_0_0 : S2048x1024.Slices ![0, 0] S1024x1024
  slices_S2048x1024_S1024x1024_1024_0 : S2048x1024.Slices ![1024, 0] S1024x1024
  bcast_S32x1024_S32x1x1024_0_2 : S32x1024.BroadcastsInDim S32x1x1024 (![0, 2] : Fin 2 → Fin S32x1x1024.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024_S1024_0 : ∀ a, (![0] : Fin 1 → Nat) a + S1024.size a ≤ S1024.size a
  h_S1024 : 0 < S1024.numel
  broadcasts_S1x1024_S512x1024 : S1x1024.Broadcasts S512x1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  reduces_S512x1_S1 : S512x1.Reduces [0] S1
  broadcasts_S1x1_S1x1024 : S1x1.Broadcasts S1x1024
  broadcasts_S512x1_S512x1024 : S512x1.Broadcasts S512x1024
  reduces_S512x1024_S1024 : S512x1024.Reduces [0] S1024
  shapeCasts_S1x1024_S1x1x1024 : S1x1024.ShapeCasts S1x1x1024
  shapeCasts_S32x1x1024_S32x1024 : S32x1x1024.ShapeCasts S32x1024
  dot_S32x1024_S1024x1024_S32x1024_1_0_0_1_n_n_wf : DotDims.WF S32x1024 S1024x1024 S32x1024 [1] [0] [0] [1] [] []
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x2048x1024.size a
  hwx0_1 : ∀ i : grid0.Coords, EltTy.bits .f32 = 32 ∨ (Rect.block (s := S32x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S32x1x1024.size a
  hwx0_6 : ∀ i : grid0.Coords, EltTy.bits .f32 = 32 ∨ (Rect.block (s := S32x1x1024) S1x1x1024.size (cc0_transform_6 i) (hinb0_6 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_v3) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x1024 : Shape := ⟨2, ![32, 1024]⟩
abbrev S32x2048x1024 : Shape := ⟨3, ![32, 2048, 1024]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S1024x1024 : Shape := ⟨2, ![1024, 1024]⟩
abbrev S32x1x1024 : Shape := ⟨3, ![32, 1, 1024]⟩
abbrev S1x1x1024 : Shape := ⟨3, ![1, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S2048x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S1024x1024, .f32⟩
  | .hbm, ⟨7, _⟩ => ⟨S32x1024, .f32⟩
  | .hbm, ⟨8, _⟩ => ⟨S1024x1024, .f32⟩
  | .hbm, ⟨9, _⟩ => ⟨S32x2048x1024, .f32⟩
  | .hbm, ⟨10, _⟩ => ⟨S32x1x1024, .f32⟩
  | .hbm, ⟨11, _⟩ => ⟨S32x2048x1024, .f32⟩
  | .hbm, ⟨12, _⟩ => ⟨S32x2048x1024, .f32⟩
  | .hbm, ⟨13, _⟩ => ⟨S1x1x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1, .f32⟩
  | .hbm, ⟨18, _⟩ => ⟨S1x1x1, .f32⟩
  | .hbm, ⟨19, _⟩ => ⟨S32x2048x1, .f32⟩
  | .hbm, ⟨20, _⟩ => ⟨S32x2048x1, .f32⟩
  | .hbm, ⟨21, _⟩ => ⟨S_, .f32⟩
  | .hbm, ⟨22, _⟩ => ⟨S32x1, .f32⟩
  | .hbm, ⟨23, _⟩ => ⟨S_, .f32⟩
  | .hbm, ⟨24, _⟩ => ⟨S32x1, .f32⟩
  | .hbm, ⟨25, _⟩ => ⟨S32x1, .f32⟩
  | .hbm, ⟨26, _⟩ => ⟨S32x1x1, .f32⟩
  | .hbm, ⟨27, _⟩ => ⟨S32x2048x1, .f32⟩
  | .hbm, ⟨28, _⟩ => ⟨S32x2048x1, .f32⟩
  | .hbm, ⟨29, _⟩ => ⟨S32x2048x1, .f32⟩
  | .hbm, ⟨30, _⟩ => ⟨S_, .f32⟩
  | .hbm, ⟨31, _⟩ => ⟨S32x1, .f32⟩
  | .hbm, ⟨32, _⟩ => ⟨S32x1x1, .f32⟩
  | .hbm, ⟨33, _⟩ => ⟨S32x2048x1, .f32⟩
  | .hbm, ⟨34, _⟩ => ⟨S32x2048x1, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  slices_S2048x1024_S1024x1024_0_0 : S2048x1024.Slices ![0, 0] S1024x1024
  slices_S2048x1024_S1024x1024_1024_0 : S2048x1024.Slices ![1024, 0] S1024x1024
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x1024_S1024x1024_S32x1024_1_0_0_1_n_n_wf : DotDims.WF S32x1024 S1024x1024 S32x1024 [1] [0] [0] [1] [] []
  dot_S32x2048x1024_S1024x1024_S32x2048x1024_2_0_01_1_n_n_wf : DotDims.WF S32x2048x1024 S1024x1024 S32x2048x1024 [2] [0] [0, 1] [1] [] []
  dot_S32x2048x1024_S1024x1_S32x2048x1_2_0_01_1_n_n_wf : DotDims.WF S32x2048x1024 S1024x1 S32x2048x1 [2] [0] [0, 1] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf
def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf

class Facts : Prop extends Facts₀ where

variable [Facts]
-- ==== Proof.Lift.lean ====
/-
  Extended reals that are real: the coercion of a finite sum, of a maximum over a nonempty family, of a quotient by a
  nonzero real, and the two bit patterns that matter here (the f32 zero is 0, the f32 negative infinity is ⊥).
-/
import Idealize.ShloMosaic.PureOps.Ideal
import Idealize.ShloMosaic.PureOps.Ideal.Laws
import Mathlib.Data.Finset.Fold

noncomputable section

namespace Cert.Lift

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real maximum of a family of reals, taken through the extended reals' fold from ⊥. -/
def foldMaxR {n : ℕ} (σ : Fin n → ℝ) : ℝ := ((Finset.univ : Finset (Fin n)).fold max ⊥ (fun p => (σ p : EReal))).toReal

/-- Over a nonempty family the fold of `max` from ⊥ is a real: it is above one of the reals and below ⊤. -/
theorem coe_foldMaxR {n : ℕ} (i0 : Fin n) (σ : Fin n → ℝ) :
    (foldMaxR σ : EReal) = (Finset.univ : Finset (Fin n)).fold max ⊥ (fun p => (σ p : EReal)) := by
  refine EReal.coe_toReal ?_ ?_
  · exact ne_of_lt (Iff.mpr (_root_.Finset.fold_max_lt _) ⟨bot_lt_top, fun x _ => EReal.coe_lt_top _⟩)
  · exact ne_of_gt (lt_of_lt_of_le (EReal.bot_lt_coe (σ i0)) (Iff.mpr (_root_.Finset.le_fold_max _) (Or.inr ⟨i0, Finset.mem_univ _, le_rfl⟩)))

/-- A real divided by a nonzero real, in the extended reals' division, is the real quotient. -/
theorem div_coe_coe (a : ℝ) {y : ℝ} (h : y ≠ 0) : Ideal.div (a : EReal) (y : EReal) = ((a / y : ℝ) : EReal) := by
  rw [Ideal.div_coe h, ← EReal.coe_mul]; congr 1; ring

theorem ofBits_neg_inf : Ideal.ofBits .f32 0xFF800000#32 = ⊥ := by simp [Ideal.ofBits, Ideal.ieee]

theorem ofBits_zero : Ideal.ofBits .f32 0x00000000#32 = 0 := Ideal.ofBits_zero_f32

theorem ofBits_pos_inf : Ideal.ofBits .f32 0x7F800000#32 = ⊤ := by simp [Ideal.ofBits, Ideal.ieee]

end Cert.Lift

end
-- ==== Proof.Finite.lean ====
/-
  The precondition read: every entry of every argument array is a real number.

  The precondition is the conjunction, array by array, of "every entry is below +∞ in absolute value". An extended real
  whose absolute value max x (-x) is below ⊤ is neither ⊤ nor ⊥, so it is (the coercion of) a real.
-/
import proofs.«161566_j24464133718781_2_alg».proof.Pre_finite_inputs
import proofs.«161566_j24464133718781_2_alg».proof.Proof.Gen.Pre_finite_inputs
import proofs.«161566_j24464133718781_2_alg».proof.Proof.Lift
import Idealize.ShloMosaic.Lib.ReduceAll
import Idealize.ShloMosaic.Lib.ValueIdx
import Idealize.ShloMosaic.Lib.Affine

noncomputable section

namespace Cert.Finite

open Idealize.ShloMosaic Cert.Pre_finite_inputs Cert.Lift

instance : Subsingleton S_.Idx := ⟨fun a b => funext fun d => d.elim0⟩

/-- An extended real with |x| < +∞ is a real. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [ofBits_pos_inf] at h
  induction x using EReal.rec with
  | bot => exfalso; revert h; simp [FloatOps.cmpf, FloatOps.hostAbsf, Ideal.cmp]
  | coe r => exact ⟨r, rfl⟩
  | top => exfalso; revert h; simp [FloatOps.cmpf, FloatOps.hostAbsf, Ideal.cmp]

/-- Under the precondition every entry of every argument array is a real. -/
theorem reals_of_pre (a0 : FVec Ideal S32x1024 .f32) (a1 : FVec Ideal S32x2048x1024 .f32) (a2 : FVec Ideal S2048x1024 .f32)
    (a3 : FVec Ideal S1024 .f32) (a4 : FVec Ideal S1024x1 .f32) (a5 : FVec Ideal S1 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  simp only [Idealize.ShloMosaic.andi, IntOp.andi_eq_one] at h0
  obtain ⟨⟨⟨⟨⟨e0, e1⟩, e2⟩, e3⟩, e4⟩, e5⟩ := h0
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i),
    fun i => real_of_abs_lt _ (Host.reduce_andi_all _ _ _ _ _ e4 i), fun i => real_of_abs_lt _ (Host.reduce_andi_all _ _ _ _ _ e5 i)⟩

end Cert.Finite

end
-- ==== Proof.Softmax.lean ====
/-
  The online (tile by tile) softmax-weighted sum, over the reals.

  A row of scores `s_k` and values `v_k` is cut into tiles. A running triple (μ, l, a) is kept: a shift μ, the
  normaliser l = ∑ exp (s_k - μ) and the weighted sums a_h = ∑ exp (s_k - μ) · v_{k,h} over the rows seen so far. A new tile
  with shift μ' = max μ τ rescales the old sums by exp (μ - μ') — because exp (μ - μ') · exp (s - μ) = exp (s - μ') — and
  adds its own terms. Whatever the shifts were, a / l is the softmax-weighted sum: a common factor exp (-μ) cancels in
  the quotient.
-/
import Idealize.ShloMosaic.PureOps.Ideal

noncomputable section

namespace Cert.Softmax

open Finset

variable {P H : ℕ}

/-- The running triple: the shift, the normaliser, the weighted sums. -/
abbrev St (H : ℕ) := ℝ × ℝ × (Fin H → ℝ)

/-- The first tile, shifted by `τ`. -/
def first (τ : ℝ) (σ : Fin P → ℝ) (ε : Fin P → Fin H → ℝ) : St H :=
  (τ, ∑ p, Real.exp (σ p - τ), fun h => ∑ p, Real.exp (σ p - τ) * ε p h)

/-- A later tile: the new shift is `max μ τ`, the old sums are rescaled by `exp (μ - max μ τ)`. -/
def next (S : St H) (τ : ℝ) (σ : Fin P → ℝ) (ε : Fin P → Fin H → ℝ) : St H :=
  (max S.1 τ,
   Real.exp (S.1 - max S.1 τ) * S.2.1 + ∑ p, Real.exp (σ p - max S.1 τ),
   fun h => Real.exp (S.1 - max S.1 τ) * S.2.2 h + ∑ p, Real.exp (σ p - max S.1 τ) * ε p h)

/-- The triple after tiles `0 … j`. -/
def run (τ : ℕ → ℝ) (σ : ℕ → Fin P → ℝ) (ε : ℕ → Fin P → Fin H → ℝ) : ℕ → St H
  | 0 => first (τ 0) (σ 0) (ε 0)
  | j + 1 => next (run τ σ ε j) (τ (j + 1)) (σ (j + 1)) (ε (j + 1))

theorem exp_rescale (μ μ' x : ℝ) : Real.exp (μ - μ') * Real.exp (x - μ) = Real.exp (x - μ') := by
  rw [← Real.exp_add]; congr 1; ring

/-- After tiles `0 … j` the normaliser and the weighted sums are the sums over all rows seen, at the CURRENT shift. -/
theorem run_closed (τ : ℕ → ℝ) (σ : ℕ → Fin P → ℝ) (ε : ℕ → Fin P → Fin H → ℝ) : ∀ j,
    (run τ σ ε j).2.1 = ∑ q ∈ range (j + 1), ∑ p, Real.exp (σ q p - (run τ σ ε j).1)
    ∧ ∀ h, (run τ σ ε j).2.2 h = ∑ q ∈ range (j + 1), ∑ p, Real.exp (σ q p - (run τ σ ε j).1) * ε q p h
  | 0 => by
    refine ⟨?_, fun h => ?_⟩ <;> simp [run, first]
  | j + 1 => by
    obtain ⟨hl, ha⟩ := run_closed τ σ ε j
    refine ⟨?_, fun h => ?_⟩
    · show Real.exp (_ - _) * (run τ σ ε j).2.1 + _ = _
      rw [hl, Finset.sum_range_succ _ (j + 1), Finset.mul_sum]
      congr 1
      refine Finset.sum_congr rfl fun q _ => ?_
      rw [Finset.mul_sum]
      exact Finset.sum_congr rfl fun p _ => exp_rescale _ _ _
    · show Real.exp (_ - _) * (run τ σ ε j).2.2 h + _ = _
      rw [ha h, Finset.sum_range_succ _ (j + 1), Finset.mul_sum]
      congr 1
      refine Finset.sum_congr rfl fun q _ => ?_
      rw [Finset.mul_sum]
      exact Finset.sum_congr rfl fun p _ => by rw [← mul_assoc, exp_rescale]; rfl

/-- The normaliser is positive as soon as a tile has a row. -/
theorem run_pos [NeZero P] (τ : ℕ → ℝ) (σ : ℕ → Fin P → ℝ) (ε : ℕ → Fin P → Fin H → ℝ) (j : ℕ) :
    0 < (run τ σ ε j).2.1 := by
  rw [(run_closed τ σ ε j).1]
  refine Finset.sum_pos (fun q _ => Finset.sum_pos (fun p _ => Real.exp_pos _) ⟨0, Finset.mem_univ _⟩) ⟨0, ?_⟩
  simp

variable {ι : Type*} [Fintype ι]

/-- A common shift cancels in the quotient of the two sums. -/
theorem shift_cancel (sc v : ι → ℝ) (μ : ℝ) :
    (∑ k, Real.exp (sc k - μ) * v k) / (∑ k, Real.exp (sc k - μ))
      = (∑ k, Real.exp (sc k) * v k) / ∑ k, Real.exp (sc k) := by
  have h : ∀ k, Real.exp (sc k - μ) = Real.exp (sc k) / Real.exp μ := fun k => Real.exp_sub _ _
  simp only [h, div_mul_eq_mul_div, ← Finset.sum_div]
  exact div_div_div_cancel_right₀ (Real.exp_ne_zero μ) _ _

/-- Weights normalised one by one, then summed against the values: the quotient of the two sums. -/
theorem weights_form (sc v : ι → ℝ) (M : ℝ) :
    ∑ k, (Real.exp (sc k - M) / ∑ k', Real.exp (sc k' - M)) * v k
      = (∑ k, Real.exp (sc k - M) * v k) / ∑ k, Real.exp (sc k - M) := by
  simp only [div_mul_eq_mul_div, ← Finset.sum_div]

/-- The two spellings of the softmax-weighted sum agree, whatever shift each subtracted. -/
theorem softmax_shift (sc v : ι → ℝ) (μ M : ℝ) :
    (∑ k, Real.exp (sc k - μ) * v k) / (∑ k, Real.exp (sc k - μ))
      = ∑ k, (Real.exp (sc k - M) / ∑ k', Real.exp (sc k' - M)) * v k := by
  rw [weights_form, shift_cancel, shift_cancel sc v M]

/-- Four tiles of 512 rows are the 2048 rows: row `p` of tile `q` is row `512 q + p`. -/
theorem sum_tiles (g : Fin 2048 → ℝ) :
    ∑ q ∈ range 4, ∑ p : Fin 512, g ⟨512 * (q % 4) + p.val, by have := p.isLt; omega⟩ = ∑ s : Fin 2048, g s := by
  refine (Fin.sum_univ_eq_sum_range (fun q => ∑ p : Fin 512, g ⟨512 * (q % 4) + p.val, by have := p.isLt; omega⟩) 4).symm.trans ?_
  rw [← Equiv.sum_comp (finProdFinEquiv (m := 4) (n := 512)) (fun s : Fin (4 * 512) => g s), Fintype.sum_prod_type]
  refine Finset.sum_congr rfl fun q _ => Finset.sum_congr rfl fun p _ => congrArg g (Fin.ext ?_)
  show 512 * (q.val % 4) + p.val = p.val + 512 * q.val
  have := q.isLt; omega

end Cert.Softmax

end
-- ==== Proof.Spec.lean ====
/-
  The attention context vector as a function of real argument arrays.

  For batch entry b the score of encoder row s is
    score b s = ∑_u tanh (dproj b u + eproj b s u + b_a[u]) · v_a[u] + b_v,
  with dproj b u = ∑_h dec[b,h] · W[h,u] and eproj b s u = ∑_h enc[b,s,h] · W[1024 + h, u]; the result is the
  softmax (over s) weighted sum of the encoder rows. Two spellings of that sum: the reference's (shift by the row
  maximum, normalise each weight, then sum), and the tile-by-tile recurrence over four tiles of 512 rows. They agree.
-/
import Idealize.ShloMosaic.PureOps.Ideal
import Idealize.ShloMosaic.Lib.ValueIdx
import proofs.«161566_j24464133718781_2_alg».proof.Proof.Softmax
import proofs.«161566_j24464133718781_2_alg».proof.Proof.Lift

noncomputable section

namespace Cert.Spec

open Idealize.ShloMosaic Idealize.ShloMosaic.ValueIdx Cert.Softmax Cert.Lift

variable (D : (⟨2, ![32, 1024]⟩ : Shape).Idx → ℝ) (E : (⟨3, ![32, 2048, 1024]⟩ : Shape).Idx → ℝ)
  (W : (⟨2, ![2048, 1024]⟩ : Shape).Idx → ℝ) (Ba : (⟨1, ![1024]⟩ : Shape).Idx → ℝ)
  (Va : (⟨2, ![1024, 1]⟩ : Shape).Idx → ℝ) (Bv : (⟨1, ![1]⟩ : Shape).Idx → ℝ)

/-- Row h of the upper half of W (the decoder's weights), and of the lower half (the encoder's). -/
abbrev upper (h : Fin 1024) : Fin 2048 := ⟨h.val, by have := h.isLt; omega⟩
abbrev lower (h : Fin 1024) : Fin 2048 := ⟨1024 + h.val, by have := h.isLt; omega⟩

/-- The decoder state projected: one row per batch entry. -/
def dproj (b : Fin 32) (u : Fin 1024) : ℝ := ∑ h : Fin 1024, D (ix2 b h) * W (ix2 (upper h) u)

/-- The encoder rows projected. -/
def eproj (b : Fin 32) (s : Fin 2048) (u : Fin 1024) : ℝ := ∑ h : Fin 1024, E (ix3 b s h) * W (ix2 (lower h) u)

/-- The attention score of encoder row s of batch entry b. -/
def score (b : Fin 32) (s : Fin 2048) : ℝ :=
  (∑ u : Fin 1024, Real.tanh ((dproj D W b u + eproj E W b s u) + Ba (ix1 u)) * Va (ix2 u (0 : Fin 1))) + Bv (ix1 (0 : Fin 1))

/-- The reference's spelling: weights exp (score - max) normalised one by one, then summed against the encoder rows. -/
def refOut (b : Fin 32) (f : Fin 1024) : ℝ :=
  ∑ k : Fin 2048, (Real.exp (score D E W Ba Va Bv b k - foldMaxR (score D E W Ba Va Bv b))
      / ∑ k' : Fin 2048, Real.exp (score D E W Ba Va Bv b k' - foldMaxR (score D E W Ba Va Bv b))) * E (ix3 b k f)

/-- Row p of tile q (q read modulo 4) is encoder row 512 q + p. -/
abbrev tileRow (q : ℕ) (p : Fin 512) : Fin 2048 := ⟨512 * (q % 4) + p.val, by have := p.isLt; omega⟩

/-- The tile's scores, rows and largest score. -/
def σt (b : Fin 32) (q : ℕ) (p : Fin 512) : ℝ := score D E W Ba Va Bv b (tileRow q p)
def εt (b : Fin 32) (q : ℕ) (p : Fin 512) (f : Fin 1024) : ℝ := E (ix3 b (tileRow q p) f)
def τt (b : Fin 32) (q : ℕ) : ℝ := foldMaxR (σt D E W Ba Va Bv b q)

/-- The running triple after tiles 0 … j of batch entry b. -/
def kst (b : Fin 32) (j : ℕ) : St 1024 := run (τt D E W Ba Va Bv b) (σt D E W Ba Va Bv b) (εt E b) j

/-- The tile-by-tile spelling: after the fourth tile, the weighted sums over the normaliser. -/
def kerOut (b : Fin 32) (f : Fin 1024) : ℝ := (kst D E W Ba Va Bv b 3).2.2 f / (kst D E W Ba Va Bv b 3).2.1

/-- The two spellings agree. -/
theorem kerOut_eq_refOut (b : Fin 32) (f : Fin 1024) : kerOut D E W Ba Va Bv b f = refOut D E W Ba Va Bv b f := by
  unfold kerOut refOut
  obtain ⟨hl, ha⟩ := run_closed (τt D E W Ba Va Bv b) (σt D E W Ba Va Bv b) (εt E b) 3
  unfold kst
  rw [ha f, hl]
  have e1 := sum_tiles (fun s => Real.exp (score D E W Ba Va Bv b s - (run (τt D E W Ba Va Bv b) (σt D E W Ba Va Bv b) (εt E b) 3).1) * E (ix3 b s f))
  have e2 := sum_tiles (fun s => Real.exp (score D E W Ba Va Bv b s - (run (τt D E W Ba Va Bv b) (σt D E W Ba Va Bv b) (εt E b) 3).1))
  simp only [σt, εt, tileRow] at e1 e2 ⊢
  rw [e1, e2]
  exact softmax_shift _ _ _ _

/-- The normaliser after any tile is positive. -/
theorem kst_pos (b : Fin 32) (j : ℕ) : 0 < (kst D E W Ba Va Bv b j).2.1 := run_pos _ _ _ j

end Cert.Spec

end
-- ==== Proof.RefValue.lean ====
/-
  The reference, read index by index over real argument arrays.

  With every argument entry real, each stage of the reference is real: the two projections, the scores, the row maximum
  (a maximum over 2048 reals), the weights exp (score - maximum), their sum (positive), the normalised weights and the
  weighted sum of the encoder rows. The result at (b, f) is the reference's spelling of the softmax-weighted sum.
-/
import proofs.«161566_j24464133718781_2_alg».proof.Proof.Gen.ReferenceIdeal.Read
import proofs.«161566_j24464133718781_2_alg».proof.Proof.Spec
import proofs.«161566_j24464133718781_2_alg».proof.Proof.Lift
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Lift Cert.Spec

/-! ## The stages' index maps at coordinates -/

theorem i0 (h : Fin 1024) (u : Fin 1024) : idx_main_v0 (ix2 h u) = (ix2 (upper h) u : S2048x1024.Idx) :=
  funext fun a => Fin.ext (by match a with | ⟨0, _⟩ => rfl | ⟨1, _⟩ => rfl)

theorem i2 (h : Fin 1024) (u : Fin 1024) : idx_main_v2 (ix2 h u) = (ix2 (lower h) u : S2048x1024.Idx) :=
  funext fun a => Fin.ext (by match a with | ⟨0, _⟩ => rfl | ⟨1, _⟩ => rfl)

theorem l1 (b : Fin 32) (u k : Fin 1024) : lidx_main_v1 (ix2 b u) k = (ix2 b k : S32x1024.Idx) :=
  funext fun a => Fin.ext (by match a with | ⟨0, _⟩ => rfl | ⟨1, _⟩ => rfl)

theorem r1 (b : Fin 32) (u k : Fin 1024) : ridx_main_v1 (ix2 b u) k = (ix2 k u : S1024x1024.Idx) :=
  funext fun a => Fin.ext (by match a with | ⟨0, _⟩ => rfl | ⟨1, _⟩ => rfl)

theorem l3 (b : Fin 32) (s : Fin 2048) (u k : Fin 1024) : lidx_main_v3 (ix3 b s u) k = (ix3 b s k : S32x2048x1024.Idx) :=
  funext fun a => Fin.ext (by match a with | ⟨0, _⟩ => rfl | ⟨1, _⟩ => rfl | ⟨2, _⟩ => rfl)

theorem r3 (b : Fin 32) (s : Fin 2048) (u k : Fin 1024) : ridx_main_v3 (ix3 b s u) k = (ix2 k u : S1024x1024.Idx) :=
  funext fun a => Fin.ext (by match a with | ⟨0, _⟩ => rfl | ⟨1, _⟩ => rfl)

theorem i4 (b : Fin 32) (z : Fin 1) (u : Fin 1024) : idx_main_v4 (ix3 b z u) = (ix2 b u : S32x1024.Idx) :=
  funext fun a => Fin.ext (by match a with | ⟨0, _⟩ => rfl | ⟨1, _⟩ => rfl)

theorem i5 (b : Fin 32) (s : Fin 2048) (u : Fin 1024) : idx_main_v5 (ix3 b s u) = (ix3 b (0 : Fin 1) u : S32x1x1024.Idx) :=
  funext fun a => Fin.ext (by match a with | ⟨0, _⟩ => rfl | ⟨1, _⟩ => rfl | ⟨2, _⟩ => rfl)

theorem i7 (z z' : Fin 1) (u : Fin 1024) : idx_main_v7 (ix3 z z' u) = (ix1 u : S1024.Idx) :=
  funext fun a => Fin.ext (by match a with | ⟨0, _⟩ => rfl)

theorem i8 (b : Fin 32) (s : Fin 2048) (u : Fin 1024) : idx_main_v8 (ix3 b s u) = (ix3 (0 : Fin 1) (0 : Fin 1) u : S1x1x1024.Idx) :=
  funext fun a => Fin.ext (by match a with | ⟨0, _⟩ => rfl | ⟨1, _⟩ => rfl | ⟨2, _⟩ => rfl)

theorem l11 (b : Fin 32) (s : Fin 2048) (z : Fin 1) (k : Fin 1024) : lidx_main_v11 (ix3 b s z) k = (ix3 b s k : S32x2048x1024.Idx) :=
  funext fun a => Fin.ext (by match a with | ⟨0, _⟩ => rfl | ⟨1, _⟩ => rfl | ⟨2, _⟩ => rfl)

theorem r11 (b : Fin 32) (s : Fin 2048) (z : Fin 1) (k : Fin 1024) : ridx_main_v11 (ix3 b s z) k = (ix2 k z : S1024x1.Idx) :=
  funext fun a => Fin.ext (by match a with | ⟨0, _⟩ => rfl | ⟨1, _⟩ => rfl)

theorem i12 (i : S1x1x1.Idx) : idx_main_v12 i = (ix1 (0 : Fin 1) : S1.Idx) :=
  funext fun a => Fin.ext (by match a with | ⟨0, _⟩ => rfl)

theorem i18 (b : Fin 32) (z z' : Fin 1) : idx_main_v18 (ix3 b z z') = (ix2 b (0 : Fin 1) : S32x1.Idx) :=
  funext fun a => Fin.ext (by match a with | ⟨0, _⟩ => rfl | ⟨1, _⟩ => rfl)

theorem i19 (b : Fin 32) (s : Fin 2048) (z : Fin 1) : idx_main_v19 (ix3 b s z) = (ix3 b (0 : Fin 1) (0 : Fin 1) : S32x1x1.Idx) :=
  funext fun a => Fin.ext (by match a with | ⟨0, _⟩ => rfl | ⟨1, _⟩ => rfl | ⟨2, _⟩ => rfl)

theorem i22 (b : Fin 32) (z : Fin 1) (k : Fin 2048) : idx_main_v22 (ix2 b z) k = (ix3 b k z : S32x2048x1.Idx) :=
  funext fun a => Fin.ext (by match a with | ⟨0, _⟩ => rfl | ⟨1, _⟩ => rfl | ⟨2, _⟩ => rfl)

theorem i23 (b : Fin 32) (z z' : Fin 1) : idx_main_v23 (ix3 b z z') = (ix2 b (0 : Fin 1) : S32x1.Idx) :=
  funext fun a => Fin.ext (by match a with | ⟨0, _⟩ => rfl | ⟨1, _⟩ => rfl)

theorem i24 (b : Fin 32) (s : Fin 2048) (z : Fin 1) : idx_main_v24 (ix3 b s z) = (ix3 b (0 : Fin 1) (0 : Fin 1) : S32x1x1.Idx) :=
  funext fun a => Fin.ext (by match a with | ⟨0, _⟩ => rfl | ⟨1, _⟩ => rfl | ⟨2, _⟩ => rfl)

theorem i26 (b : Fin 32) (s : Fin 2048) (f : Fin 1024) : idx_main_v26 (ix3 b s f) = (ix3 b s (0 : Fin 1) : S32x2048x1.Idx) :=
  funext fun a => Fin.ext (by match a with | ⟨0, _⟩ => rfl | ⟨1, _⟩ => rfl | ⟨2, _⟩ => rfl)

theorem i28 (b : Fin 32) (f : Fin 1024) (k : Fin 2048) : idx_main_v28 (ix2 b f) k = (ix3 b k f : S32x2048x1024.Idx) :=
  funext fun a => Fin.ext (by match a with | ⟨0, _⟩ => rfl | ⟨1, _⟩ => rfl | ⟨2, _⟩ => rfl)

/-! ## The stages over real arrays -/

variable (D : S32x1024.Idx → ℝ) (E : S32x2048x1024.Idx → ℝ) (W : S2048x1024.Idx → ℝ) (Ba : S1024.Idx → ℝ)
  (Va : S1024x1.Idx → ℝ) (Bv : S1.Idx → ℝ)

local notation "A0" => (fun i => ((D i : ℝ) : EReal))
local notation "A1" => (fun i => ((E i : ℝ) : EReal))
local notation "A2" => (fun i => ((W i : ℝ) : EReal))
local notation "A3" => (fun i => ((Ba i : ℝ) : EReal))
local notation "A4" => (fun i => ((Va i : ℝ) : EReal))
local notation "A5" => (fun i => ((Bv i : ℝ) : EReal))

/-- The decoder projection stage. -/
theorem dproj_eq (b : Fin 32) (u : Fin 1024) :
    val_main_v1 (F := Ideal) A0 A2 (ix2 b u) = (dproj D W b u : EReal) := by
  rw [val_main_v1_apply]
  unfold dproj
  rw [coe_sum]
  refine Finset.sum_congr rfl fun k _ => ?_
  rw [l1, r1, val_main_v0_apply, i0, EReal.coe_mul]

/-- The encoder projection stage. -/
theorem eproj_eq (b : Fin 32) (s : Fin 2048) (u : Fin 1024) :
    val_main_v3 (F := Ideal) A1 A2 (ix3 b s u) = (eproj E W b s u : EReal) := by
  rw [val_main_v3_apply]
  unfold eproj
  rw [coe_sum]
  refine Finset.sum_congr rfl fun k _ => ?_
  rw [l3, r3, val_main_v2_apply, i2, EReal.coe_mul]

/-- The argument of tanh. -/
theorem pre_eq (b : Fin 32) (s : Fin 2048) (u : Fin 1024) :
    val_main_v9 (F := Ideal) A0 A1 A2 A3 (ix3 b s u) = (((dproj D W b u + eproj E W b s u) + Ba (ix1 u) : ℝ) : EReal) := by
  rw [val_main_v9_apply, val_main_v6_apply, val_main_v5_apply, i5, val_main_v4_apply, i4, dproj_eq, eproj_eq, val_main_v8_apply, i8,
    val_main_v7_apply, i7]
  simp only [Ideal.addf_def, ← EReal.coe_add]

/-- The score stage at row s of batch entry b is the real score. -/
theorem score_eq (b : Fin 32) (s : Fin 2048) :
    val_main_v14 (F := Ideal) A0 A1 A2 A3 A4 A5 (ix3 b s (0 : Fin 1)) = (score D E W Ba Va Bv b s : EReal) := by
  rw [val_main_v14_apply, val_main_v11_apply, val_main_v13_apply, val_main_v12_apply, i12]
  have hk : ∀ k : Fin 1024, (val_main_v10 (F := Ideal) A0 A1 A2 A3) (lidx_main_v11 (ix3 b s (0 : Fin 1)) k) * A4 (ridx_main_v11 (ix3 b s (0 : Fin 1)) k)
      = ((Real.tanh ((dproj D W b k + eproj E W b s k) + Ba (ix1 k)) * Va (ix2 k (0 : Fin 1)) : ℝ) : EReal) := fun k => by
    rw [l11, r11, val_main_v10_apply, pre_eq, Ideal.hostUnary_tanh_def, Ideal.tanh_coe, ← EReal.coe_mul]
  simp only [hk, ← coe_sum, Ideal.addf_def, ← EReal.coe_add]
  rfl

/-- The index with the reduced coordinate put back: (b, k, z). -/
theorem lift_eq (h : S32x2048x1.Reduces [1] S32x1) (b : Fin 32) (z : Fin 1) (k : Fin 2048) :
    h.lift (ix2 b z) k = (ix3 b k z : S32x2048x1.Idx) :=
  funext fun a => Fin.ext (by
    match a with
    | ⟨0, _⟩ => rfl
    | ⟨1, _⟩ => rfl
    | ⟨2, _⟩ => rfl)

/-- The row maximum is the (real) maximum of the 2048 scores. -/
theorem max_eq (b : Fin 32) :
    val_main_v17 (F := Ideal) A0 A1 A2 A3 A4 A5 (ix2 b (0 : Fin 1)) = (foldMaxR (score D E W Ba Va Bv b) : EReal) := by
  rw [val_main_v17_apply, val_main_v16_apply, val_main_cst_0_apply]
  show max (Ideal.ofBits .f32 0xFF800000#32) _ = _
  rw [ofBits_neg_inf, max_bot_left]
  unfold val_main_v15
  have hred : S32x2048x1.Reduces [1] S32x1 := by decide
  rewrite [Host.reduce_eq_fold_single FloatOps.maximumf _ _ _ hred _ (ix2 b (0 : Fin 1)), Function.comp_def]
  have hf : (fun x => val_main_v14 (F := Ideal) A0 A1 A2 A3 A4 A5 (hred.lift (ix2 b (0 : Fin 1)) x))
      = fun x => ((score D E W Ba Va Bv b x : ℝ) : EReal) := funext fun x => by
    rewrite [lift_eq hred b (0 : Fin 1) x]
    exact score_eq D E W Ba Va Bv b x
  rewrite [hf, show val_main_cst (F := Ideal) (Shape.Idx.first h_S_) = ⊥ from ofBits_neg_inf]
  exact (coe_foldMaxR (n := S32x2048x1.size 1) ⟨0, by decide⟩ (score D E W Ba Va Bv b)).symm

/-- The weight of row s: exp (score - maximum). -/
theorem w_eq (b : Fin 32) (s : Fin 2048) :
    val_main_v21 (F := Ideal) A0 A1 A2 A3 A4 A5 (ix3 b s (0 : Fin 1))
      = ((Real.exp (score D E W Ba Va Bv b s - foldMaxR (score D E W Ba Va Bv b)) : ℝ) : EReal) := by
  rw [val_main_v21_apply, val_main_v20_apply, val_main_v19_apply, i19, val_main_v18_apply, i18, max_eq, score_eq]
  simp only [Ideal.hostUnary_exp_def, Ideal.subf_def, ← EReal.coe_sub, Ideal.exp_coe]

/-- The normaliser: the sum of the weights. -/
theorem sum_eq (b : Fin 32) :
    val_main_v22 (F := Ideal) A0 A1 A2 A3 A4 A5 (ix2 b (0 : Fin 1))
      = ((∑ k : Fin 2048, Real.exp (score D E W Ba Va Bv b k - foldMaxR (score D E W Ba Va Bv b)) : ℝ) : EReal) := by
  rw [val_main_v22_apply, val_main_cst_1_apply]
  simp only [i22, w_eq, ← coe_sum]
  show Ideal.ofBits .f32 0x00000000#32 + _ = _
  rw [ofBits_zero, zero_add]

/-- The normalised weight of row s. -/
theorem nw_eq (b : Fin 32) (s : Fin 2048) :
    val_main_v25 (F := Ideal) A0 A1 A2 A3 A4 A5 (ix3 b s (0 : Fin 1))
      = ((Real.exp (score D E W Ba Va Bv b s - foldMaxR (score D E W Ba Va Bv b))
          / ∑ k : Fin 2048, Real.exp (score D E W Ba Va Bv b k - foldMaxR (score D E W Ba Va Bv b)) : ℝ) : EReal) := by
  rw [val_main_v25_apply, val_main_v24_apply, i24, val_main_v23_apply, i23, sum_eq, w_eq, Ideal.hostDivf_def]
  exact div_coe_coe _ (ne_of_gt (Finset.sum_pos (fun k _ => Real.exp_pos _) ⟨⟨0, by decide⟩, Finset.mem_univ _⟩))

/-- The result: the reference's spelling of the softmax-weighted sum of the encoder rows. -/
theorem out_eq (b : Fin 32) (f : Fin 1024) :
    val_main_v28 (F := Ideal) A0 A1 A2 A3 A4 A5 (ix2 b f) = (refOut D E W Ba Va Bv b f : EReal) := by
  rw [val_main_v28_apply, val_main_cst_2_apply]
  have hk : ∀ k : Fin 2048, (val_main_v27 (F := Ideal) A0 A1 A2 A3 A4 A5) (idx_main_v28 (ix2 b f) k)
      = (((Real.exp (score D E W Ba Va Bv b k - foldMaxR (score D E W Ba Va Bv b))
          / ∑ k' : Fin 2048, Real.exp (score D E W Ba Va Bv b k' - foldMaxR (score D E W Ba Va Bv b))) * E (ix3 b k f) : ℝ) : EReal) := fun k => by
    rw [i28, val_main_v27_apply, val_main_v26_apply, i26, nw_eq, Ideal.mulf_def, ← EReal.coe_mul]
  simp only [hk, ← coe_sum]
  show Ideal.ofBits .f32 0x00000000#32 + _ = _
  rw [ofBits_zero, zero_add]
  rfl

end Cert.ReferenceIdeal.RefValue

end
-- ==== Proof.Blocks.lean ====
/-
  What each grid point loads, read off the argument arrays.

  Grid point t handles tile t mod 4 of batch entry t div 4. Its encoder block is rows 512 (t mod 4) … of batch entry
  t div 4; its decoder block is row t div 4 of the projected decoder state (a host product written before the region);
  the weights (the lower half of W, converted on the host), the two biases and the score vector are whole arrays.
-/
import proofs.«161566_j24464133718781_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Blocks

open Idealize.ShloMosaic Idealize.ShloMosaic.TcCoe Idealize.ShloMosaic.ValueIdx Idealize.SL.Sem
open Idealize.ShloMosaic.StableHlo
open Cert.KernelIdeal Cert.KernelIdeal.Gen

variable {F : FTy → Type} [FloatOps F]
variable (m : (ℓ : Loc nD τ sig) → Buf (Elt F) ℓ) (c : Dev nD)

/-- Where each window's block sits at grid point t. -/
theorem idx0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 :=
  (by decide +kernel : ∀ t : Fin grid0.N, win0_3.index t 0 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 :=
  (by decide +kernel : ∀ t : Fin grid0.N, win0_5.index t 0 = 0)
theorem idx6 : ∀ t : Fin cfg0.N, win0_6.index t 0 = t.val / 4 ∧ win0_6.index t 1 = 0 ∧ win0_6.index t 2 = 0 :=
  (by decide +kernel : ∀ t : Fin grid0.N, win0_6.index t 0 = t.val / 4 ∧ win0_6.index t 1 = 0 ∧ win0_6.index t 2 = 0)

theorem tdiv (t : Fin cfg0.N) : t.val / 4 < 32 := by
  have : t.val < 128 := lt_of_lt_of_eq t.isLt (show cfg0.N = 128 from N_0)
  omega

/-- The encoder block: row p of the tile is encoder row 512 (t mod 4) + p of batch entry t div 4. -/
theorem iblk1_apply (t : Fin cfg0.N) (p : Fin 512) (h : Fin 1024) :
    (iblk m c 1 t : Vec F S1x512x1024 .f32) (ix3 (0 : Fin 1) p h)
      = m ((c : Thread nD τ).loc main_arg1) (ix3 (⟨t.val / 4, tdiv t⟩ : Fin 32) (⟨512 * (t.val % 4) + p.val, by have := p.isLt; omega⟩ : Fin 2048) h) := by
  unfold iblk
  rw [View.read_apply]
  show V m c main_arg1 _ = _
  rw [V_main_arg1]
  congr 1
  funext a
  apply Fin.ext
  match a with
  | ⟨0, _⟩ => show win0_1.index t 0 * 1 + 1 * 0 = t.val / 4; rw [(idx1 t).1]; omega
  | ⟨1, _⟩ => show win0_1.index t 1 * 512 + 1 * p.val = 512 * (t.val % 4) + p.val; rw [(idx1 t).2.1]; omega
  | ⟨2, _⟩ => show win0_1.index t 2 * 1024 + 1 * h.val = h.val; rw [(idx1 t).2.2]; omega

/-- The bias, whole. -/
theorem iblk3_apply (t : Fin cfg0.N) (u : Fin 1024) :
    (iblk m c 3 t : Vec F S1024 .f32) (ix1 u) = m ((c : Thread nD τ).loc main_arg3) (ix1 u) := by
  unfold iblk
  rw [View.read_apply]
  show V m c main_arg3 _ = _
  rw [V_main_arg3]
  congr 1
  funext a
  apply Fin.ext
  match a with
  | ⟨0, _⟩ => show win0_3.index t 0 * 1024 + 1 * u.val = u.val; rw [idx3 t]; omega

/-- The score vector, whole. -/
theorem iblk4_apply (t : Fin cfg0.N) (u : Fin 1024) (z : Fin 1) :
    (iblk m c 4 t : Vec F S1024x1 .f32) (ix2 u z) = m ((c : Thread nD τ).loc main_arg4) (ix2 u z) := by
  unfold iblk
  rw [View.read_apply]
  show V m c main_arg4 _ = _
  rw [V_main_arg4]
  congr 1
  funext a
  apply Fin.ext
  match a with
  | ⟨0, _⟩ => show win0_4.index t 0 * 1024 + 1 * u.val = u.val; rw [(idx4 t).1]; omega
  | ⟨1, _⟩ => show win0_4.index t 1 * 1 + 1 * z.val = z.val; rw [(idx4 t).2]; omega

/-- The score bias, whole. -/
theorem iblk5_apply (t : Fin cfg0.N) (z : Fin 1) :
    (iblk m c 5 t : Vec F S1 .f32) (ix1 z) = m ((c : Thread nD τ).loc main_arg5) (ix1 z) := by
  unfold iblk
  rw [View.read_apply]
  show V m c main_arg5 _ = _
  rw [V_main_arg5]
  congr 1
  funext a
  apply Fin.ext
  match a with
  | ⟨0, _⟩ => show win0_5.index t 0 * 1 + 1 * z.val = z.val; rw [idx5 t]; omega

/-- The converted weights, whole: what the host wrote into the buffer the region stages from. -/
theorem iblk2_apply (t : Fin cfg0.N) (h u : Fin 1024) :
    (iblk m c 2 t : Vec F S1024x1024 .bf16) (ix2 h u) = V m c main_v4 (ix2 h u) := by
  unfold iblk
  rw [View.read_apply]
  show V m c main_v4 _ = _
  congr 1
  funext a
  apply Fin.ext
  match a with
  | ⟨0, _⟩ => show win0_2.index t 0 * 1024 + 1 * h.val = h.val; rw [(idx2 t).1]; omega
  | ⟨1, _⟩ => show win0_2.index t 1 * 1024 + 1 * u.val = u.val; rw [(idx2 t).2]; omega

/-- The decoder block: row t div 4 of the projected decoder state. -/
theorem iblk0_apply (t : Fin cfg0.N) (u : Fin 1024) :
    (iblk m c 0 t : Vec F S1x1x1024 .f32) (ix3 (0 : Fin 1) (0 : Fin 1) u)
      = V m c main_v3 (ix3 (⟨t.val / 4, tdiv t⟩ : Fin 32) (0 : Fin 1) u) := by
  unfold iblk
  rw [View.read_apply]
  show V m c main_v3 _ = _
  congr 1
  funext a
  apply Fin.ext
  match a with
  | ⟨0, _⟩ => show win0_0.index t 0 * 1 + 1 * 0 = t.val / 4; rw [(idx0 t).1]; omega
  | ⟨1, _⟩ => show win0_0.index t 1 * 1 + 1 * 0 = 0; rw [(idx0 t).2.1]
  | ⟨2, _⟩ => show win0_0.index t 2 * 1024 + 1 * u.val = u.val; rw [(idx0 t).2.2]; omega

/-- What the host wrote before the region: the lower half of W, converted. -/
theorem V_v4 : (V m c main_v4 : S1024x1024.Idx → Elt F .bf16)
    = truncf .bf16 (extractStridedSlice S1024x1024 ![1024, 0] (m ((c : Thread nD τ).loc main_arg2)) slices_S2048x1024_S1024x1024_1024_0) bitsLt_bf16_f32 := by
  show StableHlo.after hostOps0 (fun b => m (c, b)) (Proc.devRef .tc main_v4) = _
  after_results

/-- What the host wrote before the region: the decoder state times the upper half of W, with a unit axis added. -/
theorem V_v3 : (V m c main_v3 : S32x1x1024.Idx → Elt F .f32)
    = broadcastInDim S32x1x1024 ![0, 2] bcast_S32x1024_S32x1x1024_0_2
        (Host.dotGeneral dot_S32x1024_S1024x1024_S32x1024_1_0_0_1_n_n none (m ((c : Thread nD τ).loc main_arg0))
          (extractStridedSlice S1024x1024 ![0, 0] (m ((c : Thread nD τ).loc main_arg2)) slices_S2048x1024_S1024x1024_0_0)) := by
  show StableHlo.after hostOps0 (fun b => m (c, b)) (Proc.devRef .tc main_v3) = _
  after_results

end Cert.KernelIdeal.Blocks

end
-- ==== Proof.Pieces.lean ====
import proofs.«161566_j24464133718781_2_alg».proof.Proof.Gen.KernelIdeal.Frame
import Idealize.ShloMosaic.Lib.Pipeline.Value
import Idealize.ShloMosaic.Lib.Tactic
set_option maxRecDepth 16384

noncomputable section

/-! What one grid point leaves behind, as pure terms of what it loaded.

  A point of the grid handles one tile of 512 encoder rows of one batch entry. From the tile, the weights and the three
  running quantities it finds in scratch (the running maximum m, the normaliser l, the weighted sums a) it computes the
  new maximum, the rescaled normaliser and the rescaled weighted sums, and stores them back; the last tile of a batch entry
  also stores a / l into the output block. At the first tile of a batch entry the three quantities are first reset
  to -∞, 0 and 0, and the rest of the body reads the reset values. -/
namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The new running maximum: the old one against the tile's largest score. -/
def newM (x0 : Vec F S1x1x1024 .f32) (x1 : Vec F S1x512x1024 .f32) (x2 : Vec F S1024x1024 .bf16) (x3 : Vec F S1024 .f32) (x4 : Vec F S1024x1 .f32) (x5 : Vec F S1 .f32) (m : Vec F S1x1 .f32) : FVec F S1x1 .f32 := k0_pay10 x1 x2 x0 x3 x4 x5 m
/-- The new normaliser: the old one rescaled, plus the tile's exponentials. -/
def newL (x0 : Vec F S1x1x1024 .f32) (x1 : Vec F S1x512x1024 .f32) (x2 : Vec F S1024x1024 .bf16) (x3 : Vec F S1024 .f32) (x4 : Vec F S1024x1 .f32) (x5 : Vec F S1 .f32) (m l : Vec F S1x1 .f32) : FVec F S1x1 .f32 :=
  k0_pay1 (k0_pay12 x1 x2 x0 x3 x4 x5 m) (k0_pay13 x1 x2 x0 x3 x4 x5 m l)
/-- The new weighted sums: the old ones rescaled, plus the tile's rows weighted by their exponentials. -/
def newA (x0 : Vec F S1x1x1024 .f32) (x1 : Vec F S1x512x1024 .f32) (x2 : Vec F S1024x1024 .bf16) (x3 : Vec F S1024 .f32) (x4 : Vec F S1024x1 .f32) (x5 : Vec F S1 .f32) (m : Vec F S1x1 .f32) (a : Vec F S1x1024 .f32) : FVec F S1x1024 .f32 :=
  k0_pay2 (k0_pay8 x1) (k0_pay11 x1 x2 x0 x3 x4 x5 m) (k0_pay12 x1 x2 x0 x3 x4 x5 m) a
/-- The output block of a batch entry's last tile: the new weighted sums over the new normaliser. -/
def outv (x0 : Vec F S1x1x1024 .f32) (x1 : Vec F S1x512x1024 .f32) (x2 : Vec F S1024x1024 .bf16) (x3 : Vec F S1024 .f32) (x4 : Vec F S1024x1 .f32) (x5 : Vec F S1 .f32) (m l : Vec F S1x1 .f32) (a : Vec F S1x1024 .f32) : FVec F S1x1x1024 .f32 :=
  k0_pay4 (newA x0 x1 x2 x3 x4 x5 m a) (newL x0 x1 x2 x3 x4 x5 m l)

theorem sout0_A_0_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : cond0_0 i) (hc1 : ¬cond0_1 i) (x0 : Vec F S1x1x1024 .f32) (x1 : Vec F S1x512x1024 .f32) (x2 : Vec F S1024x1024 .bf16) (x3 : Vec F S1024 .f32) (x4 : Vec F S1024x1 .f32) (x5 : Vec F S1 .f32)  :
    sout0_A_0 c i arg2 harg2 arg3 harg3 arg4 harg4 arg5 harg5 arg6 harg6 arg7 harg7 arg8 harg8 arg9 harg9 arg10 harg10 arg11 harg11 hc0 hc1 x0 x1 x2 x3 x4 x5  = k0_pay3 (newM x0 x1 x2 x3 x4 x5 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 )]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem sout0_A_1_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : cond0_0 i) (hc1 : ¬cond0_1 i) (x0 : Vec F S1x1x1024 .f32) (x1 : Vec F S1x512x1024 .f32) (x2 : Vec F S1024x1024 .bf16) (x3 : Vec F S1024 .f32) (x4 : Vec F S1024x1 .f32) (x5 : Vec F S1 .f32)  :
    sout0_A_1 c i arg2 harg2 arg3 harg3 arg4 harg4 arg5 harg5 arg6 harg6 arg7 harg7 arg8 harg8 arg9 harg9 arg10 harg10 arg11 harg11 hc0 hc1 x0 x1 x2 x3 x4 x5  = newL x0 x1 x2 x3 x4 x5 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 )]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem sout0_A_2_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : cond0_0 i) (hc1 : ¬cond0_1 i) (x0 : Vec F S1x1x1024 .f32) (x1 : Vec F S1x512x1024 .f32) (x2 : Vec F S1024x1024 .bf16) (x3 : Vec F S1024 .f32) (x4 : Vec F S1024x1 .f32) (x5 : Vec F S1 .f32)  :
    sout0_A_2 c i arg2 harg2 arg3 harg3 arg4 harg4 arg5 harg5 arg6 harg6 arg7 harg7 arg8 harg8 arg9 harg9 arg10 harg10 arg11 harg11 hc0 hc1 x0 x1 x2 x3 x4 x5  = newA x0 x1 x2 x3 x4 x5 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5 )]
  unfold kernelRun0_A
  dsimp only
  sl_unfold_words
  rw [View.canon_cons_unit_zero (S := S1x1024) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem sout0_B_0_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : ¬cond0_1 i) (x0 : Vec F S1x1x1024 .f32) (x1 : Vec F S1x512x1024 .f32) (x2 : Vec F S1024x1024 .bf16) (x3 : Vec F S1024 .f32) (x4 : Vec F S1024x1 .f32) (x5 : Vec F S1 .f32) (xs0 : Vec F S1x1 .f32) (xs1 : Vec F S1x1 .f32) (xs2 : Vec F S1x1024 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay3 (newM x0 x1 x2 x3 x4 x5 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem sout0_B_1_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : ¬cond0_1 i) (x0 : Vec F S1x1x1024 .f32) (x1 : Vec F S1x512x1024 .f32) (x2 : Vec F S1024x1024 .bf16) (x3 : Vec F S1024 .f32) (x4 : Vec F S1024x1 .f32) (x5 : Vec F S1 .f32) (xs0 : Vec F S1x1 .f32) (xs1 : Vec F S1x1 .f32) (xs2 : Vec F S1x1024 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = newL x0 x1 x2 x3 x4 x5 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem sout0_B_2_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : ¬cond0_1 i) (x0 : Vec F S1x1x1024 .f32) (x1 : Vec F S1x512x1024 .f32) (x2 : Vec F S1024x1024 .bf16) (x3 : Vec F S1024 .f32) (x4 : Vec F S1024x1 .f32) (x5 : Vec F S1 .f32) (xs0 : Vec F S1x1 .f32) (xs1 : Vec F S1x1 .f32) (xs2 : Vec F S1x1024 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = newA x0 x1 x2 x3 x4 x5 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_cons_unit_zero (S := S1x1024) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem sout0_C_0_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i) (x0 : Vec F S1x1x1024 .f32) (x1 : Vec F S1x512x1024 .f32) (x2 : Vec F S1024x1024 .bf16) (x3 : Vec F S1024 .f32) (x4 : Vec F S1024x1 .f32) (x5 : Vec F S1 .f32) (xs0 : Vec F S1x1 .f32) (xs1 : Vec F S1x1 .f32) (xs2 : Vec F S1x1024 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay3 (newM x0 x1 x2 x3 x4 x5 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem sout0_C_1_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i) (x0 : Vec F S1x1x1024 .f32) (x1 : Vec F S1x512x1024 .f32) (x2 : Vec F S1024x1024 .bf16) (x3 : Vec F S1024 .f32) (x4 : Vec F S1024x1 .f32) (x5 : Vec F S1 .f32) (xs0 : Vec F S1x1 .f32) (xs1 : Vec F S1x1 .f32) (xs2 : Vec F S1x1024 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = newL x0 x1 x2 x3 x4 x5 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem sout0_C_2_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i) (x0 : Vec F S1x1x1024 .f32) (x1 : Vec F S1x512x1024 .f32) (x2 : Vec F S1024x1024 .bf16) (x3 : Vec F S1024 .f32) (x4 : Vec F S1024x1 .f32) (x5 : Vec F S1 .f32) (xs0 : Vec F S1x1 .f32) (xs1 : Vec F S1x1 .f32) (xs2 : Vec F S1x1024 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = newA x0 x1 x2 x3 x4 x5 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_cons_unit_zero (S := S1x1024) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

theorem out0_C_6_eq (c : Dev nD) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1 .f32) (harg6 : arg6.IsWhole) (arg7 : Memref sig .tc .vmem S1 .f32) (harg7 : arg7.IsWhole) (arg8 : Memref sig .tc .vmem S1x1x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1024 .f32) (harg11 : arg11.IsWhole) (hc0 : ¬cond0_0 i) (hc1 : cond0_1 i) (x0 : Vec F S1x1x1024 .f32) (x1 : Vec F S1x512x1024 .f32) (x2 : Vec F S1024x1024 .bf16) (x3 : Vec F S1024 .f32) (x4 : Vec F S1024x1 .f32) (x5 : Vec F S1 .f32) (xs0 : Vec F S1x1 .f32) (xs1 : Vec F S1x1 .f32) (xs2 : Vec F S1x1024 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = outv x0 x1 x2 x3 x4 x5 xs0 xs1 xs2 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_cons_unit_zero (S := S1x1x1024) hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1) hz2, View.ld_unit_zero (S := S1x1024) hz2, View.ld_unit_zero (S := S1x1x1024) hz3, View.ld_unit_zero (S := S1x512x1024) hz3, View.ld_unit_zero (S := S1024x1024) hz2, View.ld_unit_zero (S := S1024x1) hz2, View.ld_unit_zero (S := S1024) hz1, View.ld_unit_zero (S := S1) hz1, View.readCov_unit_zero (S := S1x1) _ hz2, View.readCov_unit_zero (S := S1x1024) _ hz2, newM, newL, newA, outv]

end Cert.KernelIdeal.Pieces

end
-- ==== Proof.LibLayout.lean ====
/-
  Keepdims column and row forms, for any element type and any extents.

  Read at coordinates: a vector [a] laid out as a column [a, 1] by a cast, and a column [a, 1] repeated along a second
  axis to [a, b] by a broadcast, both read, at (p, ·), the entry p of what they were given.
  As arrays: a vector cast to a column [a, 1] (to a row [1, a]) is the same array as the vector broadcast along a new
  trailing (leading) unit axis — the two ways a program may spell keepdims.
-/
import Idealize.ShloMosaic.Lib.Pipeline.Value
import Idealize.ShloMosaic.Lib.ValueIdx
import Idealize.ShloMosaic.Lib.ValueLayout

namespace Cert.Layout

open Idealize.ShloMosaic Idealize.ShloMosaic.ValueIdx

variable {α : Type}

/-- An [a] array cast to [a, 1] reads, at (p, u), the operand at p, whatever the unit coordinate u: the row-major
    position of (p, u) in [a, 1] is p·1 + u = p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid out as a column by a cast is the vector broadcast along a new trailing unit axis: both read, at
    (p, u), the vector's entry p. -/
theorem col_cast_eq_bcast {a : ℕ} (x : (⟨1, ![a]⟩ : Shape).Idx → α) (h : (⟨1, ![a]⟩ : Shape).ShapeCasts ⟨2, ![a, 1]⟩)
    (dims : Fin 1 → Fin 2) (hd : dims 0 = 0) (h' : (⟨1, ![a]⟩ : Shape).BroadcastsInDim ⟨2, ![a, 1]⟩ dims) :
    shapeCast ⟨2, ![a, 1]⟩ x h = broadcastInDim ⟨2, ![a, 1]⟩ dims h' x := by
  funext i
  obtain ⟨p, u, rfl⟩ : ∃ (p : Fin a) (u : Fin 1), i = ix2 p u := ⟨i 0, i 1, eq_ix2 i⟩
  rw [shapeCast_a_a1_apply]
  symm
  refine broadcastInDim_apply dims h' x (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A vector laid out as a row by a cast is the vector broadcast along a new leading unit axis: both read, at
    (u, p), the vector's entry p. -/
theorem row_cast_eq_bcast {a : ℕ} (x : (⟨1, ![a]⟩ : Shape).Idx → α) (h : (⟨1, ![a]⟩ : Shape).ShapeCasts ⟨2, ![1, a]⟩)
    (dims : Fin 1 → Fin 2) (hd : dims 0 = 1) (h' : (⟨1, ![a]⟩ : Shape).BroadcastsInDim ⟨2, ![1, a]⟩ dims) :
    shapeCast ⟨2, ![1, a]⟩ x h = broadcastInDim ⟨2, ![1, a]⟩ dims h' x := by
  funext i
  obtain ⟨u, p, rfl⟩ : ∃ (u : Fin 1) (p : Fin a), i = ix2 u p := ⟨i 0, i 1, eq_ix2 i⟩
  rw [shapeCast_a_1a_apply]
  symm
  refine broadcastInDim_apply dims h' x (ix2 u p) (ix1 p) fun ax => ?_
  match ax with
  | ⟨0, _⟩ =>
    show p.val = if a = 1 then 0 else (ix2 u p (dims 0)).val
    rw [hd]
    show p.val = if a = 1 then 0 else p.val
    split
    · have := p.isLt; omega
    · rfl

end Cert.Layout
-- ==== Proof.Step.lean ====
/-
  One grid point's arithmetic at the extended reals, read index by index.

  The tile's scores: row p of the tile has score
    s_p = ∑_u tanh ((∑_h enc[p,h] · W[h,u]) + dproj[u] + b_a[u]) · v_a[u] + b_v,
  the new maximum is the old one against the largest s_p, every row gets the weight exp (s_p - new maximum), the old
  normaliser and weighted sums are rescaled by exp (old maximum - new maximum) and the tile's terms added.
-/
import proofs.«161566_j24464133718781_2_alg».proof.Proof.Pieces
import proofs.«161566_j24464133718781_2_alg».proof.Proof.Lift
import proofs.«161566_j24464133718781_2_alg».proof.Proof.Softmax
import proofs.«161566_j24464133718781_2_alg».proof.Proof.LibLayout
import Idealize.ShloMosaic.Lib.ValueLayout
import Idealize.ShloMosaic.Lib.ValueIdx
import Idealize.ShloMosaic.PureOps.Ideal.Laws

set_option maxRecDepth 16384

noncomputable section

namespace Cert.KernelIdeal.Step

open Idealize.ShloMosaic Idealize.ShloMosaic.ValueIdx
open Cert.KernelIdeal Cert.KernelIdeal.Gen Cert.KernelIdeal.Pieces Cert.Layout Cert.Lift

/-- The encoder projection's contraction: tile rows [512, 1024] against the weights [1024, 1024]. -/
abbrev D1 : DotDims S512x1024 S1024x1024 S512x1024 := dot_S512x1024_S1024x1024_S512x1024_1_0_0_1_n_n
/-- The score projection's contraction: hidden rows [512, 1024] against the column [1024, 1]. -/
abbrev D2 : DotDims S512x1024 S1024x1 S512x1 := dot_S512x1024_S1024x1_S512x1_1_0_0_1_n_n

/-- Entry (p, u) of the first product is the sum over h of L[p,h] · R[h,u]. -/
theorem mm1 (L : FVec Ideal S512x1024 .bf16) (R : FVec Ideal S1024x1024 .bf16) (p : Fin 512) (u : Fin 1024) :
    FloatOps.matmul D1 none L R (constant (F := Ideal) S512x1024 .f32 0x00000000#32) (ix2 p u)
      = ∑ h : Fin 1024, L (ix2 p h) * R (ix2 h u) := by
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 p u) ((contrEquiv1 D1 1024 rfl rfl).symm k) = ix2 p k := funext fun a => Fin.ext (by
    match a with
    | ⟨0, _⟩ =>
      show (D1.lhsIdx (ix2 p u) _ 0).val = p.val
      unfold DotDims.lhsIdx
      rw [dif_neg (show ¬(0 : Fin S512x1024.rank) ∈ D1.lhsBatch by decide), dif_pos (show (0 : Fin S512x1024.rank) ∈ D1.lhsNonContracting by decide)]
      rfl
    | ⟨1, _⟩ => exact (D1.lhsIdx_val_of_single rfl _ _).trans hk)
  have er : D1.rhsIdx (ix2 p u) ((contrEquiv1 D1 1024 rfl rfl).symm k) = ix2 k u := funext fun a => Fin.ext (by
    match a with
    | ⟨0, _⟩ => exact (D1.rhsIdx_val_of_single rfl _ _).trans hk
    | ⟨1, _⟩ =>
      show (D1.rhsIdx (ix2 p u) _ 1).val = u.val
      unfold DotDims.rhsIdx
      rw [dif_neg (show ¬(1 : Fin S1024x1024.rank) ∈ D1.rhsBatch by decide), dif_pos (show (1 : Fin S1024x1024.rank) ∈ D1.rhsNonContracting by decide)]
      rfl)
  rw [el, er]

/-- Entry (p, 0) of the second product is the sum over u of L[p,u] · R[u,0]. -/
theorem mm2 (L : FVec Ideal S512x1024 .f32) (R : FVec Ideal S1024x1 .f32) (p : Fin 512) (z : Fin 1) :
    FloatOps.matmul D2 none L R (constant (F := Ideal) S512x1 .f32 0x00000000#32) (ix2 p z)
      = ∑ u : Fin 1024, L (ix2 p u) * R (ix2 u z) := by
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 p z) ((contrEquiv1 D2 1024 rfl rfl).symm k) = ix2 p k := funext fun a => Fin.ext (by
    match a with
    | ⟨0, _⟩ =>
      show (D2.lhsIdx (ix2 p z) _ 0).val = p.val
      unfold DotDims.lhsIdx
      rw [dif_neg (show ¬(0 : Fin S512x1024.rank) ∈ D2.lhsBatch by decide), dif_pos (show (0 : Fin S512x1024.rank) ∈ D2.lhsNonContracting by decide)]
      rfl
    | ⟨1, _⟩ => exact (D2.lhsIdx_val_of_single rfl _ _).trans hk)
  have er : D2.rhsIdx (ix2 p z) ((contrEquiv1 D2 1024 rfl rfl).symm k) = ix2 k z := funext fun a => Fin.ext (by
    match a with
    | ⟨0, _⟩ => exact (D2.rhsIdx_val_of_single rfl _ _).trans hk
    | ⟨1, _⟩ =>
      show (D2.rhsIdx (ix2 p z) _ 1).val = z.val
      unfold DotDims.rhsIdx
      rw [dif_neg (show ¬(1 : Fin S1024x1.rank) ∈ D2.rhsBatch by decide), dif_pos (show (1 : Fin S1024x1.rank) ∈ D2.rhsNonContracting by decide)]
      rfl)
  rw [el, er]

/-- The score of tile row p, from the body's loads. -/
theorem score_apply (v3 : Vec Ideal S1x512x1024 .f32) (v6 : Vec Ideal S1024x1024 .bf16) (v9 : Vec Ideal S1x1x1024 .f32)
    (v11 : Vec Ideal S1024 .f32) (v18 : Vec Ideal S1024x1 .f32) (v20 : Vec Ideal S1 .f32) (p : Fin 512) :
    k0_pay9 v3 v6 v9 v11 v18 v20 (ix2 p (0 : Fin 1)) =
      (∑ u : Fin 1024, Ideal.tanh (((∑ h : Fin 1024, v3 (ix3 (0 : Fin 1) p h) * v6 (ix2 h u)) + v9 (ix3 (0 : Fin 1) (0 : Fin 1) u))
          + v11 (ix1 u)) * v18 (ix2 u (0 : Fin 1))) + v20 (ix1 (0 : Fin 1)) := by
  unfold k0_pay9 k0_pay8
  simp only [addf_apply, matmul, mm2, tanh, Ideal.tanh_def, mm1, truncf_apply, shapeCast_1ab_ab_apply, shapeCast_self,
    broadcastTo_1b_ab_apply, shapeCast_a_1a_apply, shapeCast_a_a1_apply]

/-- The largest score of the tile: the fold of `max` from -∞ over the tile's rows is a real once every score is. -/
theorem redMax (src : FVec Ideal S512x1 .f32) (σ : Fin 512 → ℝ) (hs : ∀ p, src (ix2 p (0 : Fin 1)) = (σ p : EReal))
    (h : S512x1.Reduces [0] S1) (hφ : FKind.Formats .f32) (hacc : (0xFF800000#32 : BitVec 32) = FKind.maximumf.neutral .f32 hφ)
    (j : S1.Idx) :
    multiReduction .maximumf [0] S1 src 0xFF800000#32 h hφ hacc j = (foldMaxR σ : EReal) := by
  refine (Ideal.multiReduction_maximumf_single src 0xFF800000#32 h hφ hacc j).trans ?_
  rw [coe_foldMaxR (⟨0, by decide⟩ : Fin 512) σ]
  have hf : (src ∘ h.lift j) = fun p : Fin 512 => (σ p : EReal) := funext fun k => by
    show src (h.lift j k) = _
    rw [← hs k]
    refine congrArg src (funext fun a => Fin.ext ?_)
    match a with
    | ⟨0, _⟩ => rfl
    | ⟨1, _⟩ =>
      show (j 0).val = 0
      have : (j 0).val < 1 := (j 0).isLt
      omega
  rw [hf]
  show Finset.fold max (Ideal.ofBits .f32 0xFF800000#32) _ _ = _
  rw [ofBits_neg_inf]
  rfl

/-- A sum down the tile's rows of a column. -/
theorem redAdd1 (src : FVec Ideal S512x1 .f32) (h : S512x1.Reduces [0] S1) (hφ : FKind.Formats .f32)
    (hacc : (0x00000000#32 : BitVec 32) = FKind.add.neutral .f32 hφ) (j : S1.Idx) :
    multiReduction .add [0] S1 src 0x00000000#32 h hφ hacc j = ∑ p : Fin 512, src (ix2 p (0 : Fin 1)) := by
  refine (Ideal.multiReduction_add_single src 0x00000000#32 h hφ hacc j).trans ?_
  refine Finset.sum_congr rfl fun k _ => congrArg src (funext fun a => Fin.ext ?_)
  match a with
  | ⟨0, _⟩ => rfl
  | ⟨1, _⟩ =>
    show (j 0).val = 0
    have : (j 0).val < 1 := (j 0).isLt
    omega

/-- A sum down the tile's rows, feature by feature. -/
theorem redAdd2 (src : FVec Ideal S512x1024 .f32) (h : S512x1024.Reduces [0] S1024) (hφ : FKind.Formats .f32)
    (hacc : (0x00000000#32 : BitVec 32) = FKind.add.neutral .f32 hφ) (f : Fin 1024) :
    multiReduction .add [0] S1024 src 0x00000000#32 h hφ hacc (ix1 f) = ∑ p : Fin 512, src (ix2 p f) := by
  refine (Ideal.multiReduction_add_single src 0x00000000#32 h hφ hacc (ix1 f)).trans ?_
  refine Finset.sum_congr rfl fun k _ => congrArg src (funext fun a => Fin.ext ?_)
  match a with
  | ⟨0, _⟩ => rfl
  | ⟨1, _⟩ => rfl

/-- The stored normaliser: the rescaled old one plus the sum of the tile's weights. -/
theorem pay1_apply (v32 : FVec Ideal S512x1 .f32) (v34 : FVec Ideal S1x1 .f32) :
    k0_pay1 v32 v34 (ix2 (0 : Fin 1) (0 : Fin 1)) = v34 (ix2 (0 : Fin 1) (0 : Fin 1)) + ∑ p : Fin 512, v32 (ix2 p (0 : Fin 1)) := by
  unfold k0_pay1
  simp only [shapeCast_self, addf_apply, shapeCast_a_a1_apply]
  exact congrArg (fun z : EReal => v34 (ix2 (0 : Fin 1) (0 : Fin 1)) + z) (redAdd1 v32 _ _ _ _)

/-- The stored weighted sums: the rescaled old ones plus the tile's rows weighted. -/
theorem pay2_apply (v4 : FVec Ideal S512x1024 .f32) (v29 : FVec Ideal S1x1 .f32) (v32 : FVec Ideal S512x1 .f32)
    (v41 : Vec Ideal S1x1024 .f32) (f : Fin 1024) :
    k0_pay2 v4 v29 v32 v41 (ix2 (0 : Fin 1) f)
      = v29 (ix2 (0 : Fin 1) (0 : Fin 1)) * v41 (ix2 (0 : Fin 1) f) + ∑ p : Fin 512, v32 (ix2 p (0 : Fin 1)) * v4 (ix2 p f) := by
  unfold k0_pay2
  simp only [shapeCast_self, addf_apply, mulf_apply, broadcastTo_a1_ab_apply, shapeCast_a_1a_apply]
  refine congrArg (fun z : EReal => v29 (ix2 (0 : Fin 1) (0 : Fin 1)) * v41 (ix2 (0 : Fin 1) f) + z) ?_
  refine (redAdd2 _ _ _ _ f).trans ?_
  refine Finset.sum_congr rfl fun p _ => ?_
  simp only [mulf_apply, broadcastTo_a1_ab_apply]

/-- The output block: the weighted sums over the normaliser. -/
theorem pay4_apply (v58 : Vec Ideal S1x1024 .f32) (v59 : Vec Ideal S1x1 .f32) (f : Fin 1024) :
    k0_pay4 v58 v59 (ix3 (0 : Fin 1) (0 : Fin 1) f) = Ideal.div (v58 (ix2 (0 : Fin 1) f)) (v59 (ix2 (0 : Fin 1) (0 : Fin 1))) := by
  unfold k0_pay4
  simp only [shapeCast_ab_1ab_apply, divf_apply, broadcastTo_a1_ab_apply]

section Point

variable (x0 : Vec Ideal S1x1x1024 .f32) (x1 : Vec Ideal S1x512x1024 .f32) (x2 : Vec Ideal S1024x1024 .bf16)
  (x3 : Vec Ideal S1024 .f32) (x4 : Vec Ideal S1024x1 .f32) (x5 : Vec Ideal S1 .f32)

/-- The score of tile row p when every load is real. -/
def tsc (e : Fin 512 → Fin 1024 → ℝ) (w : Fin 1024 → Fin 1024 → ℝ) (d ba va : Fin 1024 → ℝ) (bv : ℝ) (p : Fin 512) : ℝ :=
  (∑ u : Fin 1024, Real.tanh (((∑ h : Fin 1024, e p h * w h u) + d u) + ba u) * va u) + bv

theorem score_real (e : Fin 512 → Fin 1024 → ℝ) (w : Fin 1024 → Fin 1024 → ℝ) (d ba va : Fin 1024 → ℝ) (bv : ℝ)
    (h1 : ∀ p h, x1 (ix3 (0 : Fin 1) p h) = (e p h : EReal)) (h2 : ∀ h u, x2 (ix2 h u) = (w h u : EReal))
    (h0 : ∀ u, x0 (ix3 (0 : Fin 1) (0 : Fin 1) u) = (d u : EReal)) (h3 : ∀ u, x3 (ix1 u) = (ba u : EReal))
    (h4 : ∀ u, x4 (ix2 u (0 : Fin 1)) = (va u : EReal)) (h5 : x5 (ix1 (0 : Fin 1)) = (bv : EReal)) (p : Fin 512) :
    k0_pay9 x1 x2 x0 x3 x4 x5 (ix2 p (0 : Fin 1)) = (tsc e w d ba va bv p : EReal) := by
  rw [score_apply]
  simp only [h1, h2, h0, h3, h4, h5, ← EReal.coe_mul, ← coe_sum, ← EReal.coe_add, Ideal.tanh_coe]
  rfl

variable (σ : Fin 512 → ℝ) (hσ : ∀ p, k0_pay9 x1 x2 x0 x3 x4 x5 (ix2 p (0 : Fin 1)) = (σ p : EReal))
include hσ

/-- The new maximum: the old one against the tile's largest score. -/
theorem newM_apply (m : Vec Ideal S1x1 .f32) :
    newM x0 x1 x2 x3 x4 x5 m (ix2 (0 : Fin 1) (0 : Fin 1)) = max (m (ix2 (0 : Fin 1) (0 : Fin 1))) (foldMaxR σ : EReal) := by
  unfold newM k0_pay10
  simp only [maximumf_apply, shapeCast_a_a1_apply]
  exact congrArg (max (m _)) (redMax _ σ hσ _ _ _ _)

omit hσ in
/-- The weight of tile row p: exp (score - new maximum). -/
theorem w_apply (m : Vec Ideal S1x1 .f32) (p : Fin 512) :
    k0_pay12 x1 x2 x0 x3 x4 x5 m (ix2 p (0 : Fin 1))
      = Ideal.exp (k0_pay9 x1 x2 x0 x3 x4 x5 (ix2 p (0 : Fin 1)) - newM x0 x1 x2 x3 x4 x5 m (ix2 (0 : Fin 1) (0 : Fin 1))) := by
  unfold k0_pay12 newM
  show Ideal.exp (k0_pay9 x1 x2 x0 x3 x4 x5 (ix2 p (0 : Fin 1)) - broadcastTo S512x1 (k0_pay10 x1 x2 x0 x3 x4 x5 m) _ (ix2 p (0 : Fin 1))) = _
  rw [broadcastTo_1b_ab_apply]

omit hσ in
/-- The new normaliser. -/
theorem newL_apply (m l : Vec Ideal S1x1 .f32) :
    newL x0 x1 x2 x3 x4 x5 m l (ix2 (0 : Fin 1) (0 : Fin 1))
      = Ideal.exp (m (ix2 (0 : Fin 1) (0 : Fin 1)) - newM x0 x1 x2 x3 x4 x5 m (ix2 (0 : Fin 1) (0 : Fin 1))) * l (ix2 (0 : Fin 1) (0 : Fin 1))
        + ∑ p : Fin 512, Ideal.exp (k0_pay9 x1 x2 x0 x3 x4 x5 (ix2 p (0 : Fin 1)) - newM x0 x1 x2 x3 x4 x5 m (ix2 (0 : Fin 1) (0 : Fin 1))) := by
  unfold newL
  rw [pay1_apply]
  exact congrArg₂ (· + ·) rfl (Finset.sum_congr rfl fun p _ => w_apply x0 x1 x2 x3 x4 x5 m p)

omit hσ in
/-- The new weighted sums. -/
theorem newA_apply (m : Vec Ideal S1x1 .f32) (a : Vec Ideal S1x1024 .f32) (f : Fin 1024) :
    newA x0 x1 x2 x3 x4 x5 m a (ix2 (0 : Fin 1) f)
      = Ideal.exp (m (ix2 (0 : Fin 1) (0 : Fin 1)) - newM x0 x1 x2 x3 x4 x5 m (ix2 (0 : Fin 1) (0 : Fin 1))) * a (ix2 (0 : Fin 1) f)
        + ∑ p : Fin 512, Ideal.exp (k0_pay9 x1 x2 x0 x3 x4 x5 (ix2 p (0 : Fin 1)) - newM x0 x1 x2 x3 x4 x5 m (ix2 (0 : Fin 1) (0 : Fin 1))) * x1 (ix3 (0 : Fin 1) p f) := by
  unfold newA
  rw [pay2_apply]
  refine congrArg₂ (· + ·) rfl (Finset.sum_congr rfl fun p _ => ?_)
  rw [w_apply]
  congr 1
  unfold k0_pay8
  exact shapeCast_1ab_ab_apply _ _ p f

omit hσ in
/-- The output block. -/
theorem outv_apply (m l : Vec Ideal S1x1 .f32) (a : Vec Ideal S1x1024 .f32) (f : Fin 1024) :
    outv x0 x1 x2 x3 x4 x5 m l a (ix3 (0 : Fin 1) (0 : Fin 1) f)
      = Ideal.div (newA x0 x1 x2 x3 x4 x5 m a (ix2 (0 : Fin 1) f)) (newL x0 x1 x2 x3 x4 x5 m l (ix2 (0 : Fin 1) (0 : Fin 1))) := by
  unfold outv
  exact pay4_apply _ _ f

omit hσ in
theorem pay5_apply (i : S1x1.Idx) : k0_pay5 (F := Ideal) i = ⊥ := by
  unfold k0_pay5
  simp only [shapeCast_self]
  exact ofBits_neg_inf
omit hσ in
theorem pay6_apply (i : S1x1.Idx) : k0_pay6 (F := Ideal) i = 0 := by
  unfold k0_pay6
  simp only [shapeCast_self]
  exact ofBits_zero
omit hσ in
theorem pay7_apply (i : S1x1024.Idx) : k0_pay7 (F := Ideal) i = 0 := by
  unfold k0_pay7
  simp only [shapeCast_self]
  exact ofBits_zero

variable (ε : Fin 512 → Fin 1024 → ℝ) (hε : ∀ p f, x1 (ix3 (0 : Fin 1) p f) = (ε p f : EReal))
include hε

/-- The first tile of a batch entry: from the reset values -∞, 0, 0 the body leaves the first triple. -/
theorem first_step :
    newM x0 x1 x2 x3 x4 x5 (k0_pay5 (F := Ideal)) (ix2 (0 : Fin 1) (0 : Fin 1)) = ((Softmax.first (foldMaxR σ) σ ε).1 : EReal)
    ∧ newL x0 x1 x2 x3 x4 x5 (k0_pay5 (F := Ideal)) (k0_pay6 (F := Ideal)) (ix2 (0 : Fin 1) (0 : Fin 1)) = ((Softmax.first (foldMaxR σ) σ ε).2.1 : EReal)
    ∧ ∀ f, newA x0 x1 x2 x3 x4 x5 (k0_pay5 (F := Ideal)) (k0_pay7 (F := Ideal)) (ix2 (0 : Fin 1) f) = ((Softmax.first (foldMaxR σ) σ ε).2.2 f : EReal) := by
  have hM : newM x0 x1 x2 x3 x4 x5 (k0_pay5 (F := Ideal)) (ix2 (0 : Fin 1) (0 : Fin 1)) = (foldMaxR σ : EReal) := by
    rw [newM_apply x0 x1 x2 x3 x4 x5 σ hσ, pay5_apply]; exact max_bot_left _
  refine ⟨hM, ?_, fun f => ?_⟩
  · rw [newL_apply, hM, pay5_apply, pay6_apply, mul_zero, zero_add]
    simp only [hσ, ← EReal.coe_sub, Ideal.exp_coe, ← coe_sum]
    rfl
  · rw [newA_apply, hM, pay5_apply, pay7_apply, mul_zero, zero_add]
    simp only [hσ, hε, ← EReal.coe_sub, Ideal.exp_coe, ← EReal.coe_mul, ← coe_sum]
    rfl

/-- A later tile: from a real triple the body leaves the next one, and (on the last tile) the quotient. -/
theorem next_step (S : Softmax.St 1024) (m l : Vec Ideal S1x1 .f32) (a : Vec Ideal S1x1024 .f32)
    (hm : m (ix2 (0 : Fin 1) (0 : Fin 1)) = (S.1 : EReal)) (hl : l (ix2 (0 : Fin 1) (0 : Fin 1)) = (S.2.1 : EReal))
    (ha : ∀ f, a (ix2 (0 : Fin 1) f) = (S.2.2 f : EReal)) :
    newM x0 x1 x2 x3 x4 x5 m (ix2 (0 : Fin 1) (0 : Fin 1)) = ((Softmax.next S (foldMaxR σ) σ ε).1 : EReal)
    ∧ newL x0 x1 x2 x3 x4 x5 m l (ix2 (0 : Fin 1) (0 : Fin 1)) = ((Softmax.next S (foldMaxR σ) σ ε).2.1 : EReal)
    ∧ (∀ f, newA x0 x1 x2 x3 x4 x5 m a (ix2 (0 : Fin 1) f) = ((Softmax.next S (foldMaxR σ) σ ε).2.2 f : EReal))
    ∧ (∀ f, (Softmax.next S (foldMaxR σ) σ ε).2.1 ≠ 0 → outv x0 x1 x2 x3 x4 x5 m l a (ix3 (0 : Fin 1) (0 : Fin 1) f)
        = (((Softmax.next S (foldMaxR σ) σ ε).2.2 f / (Softmax.next S (foldMaxR σ) σ ε).2.1 : ℝ) : EReal)) := by
  have hM : newM x0 x1 x2 x3 x4 x5 m (ix2 (0 : Fin 1) (0 : Fin 1)) = ((max S.1 (foldMaxR σ) : ℝ) : EReal) := by
    rw [newM_apply x0 x1 x2 x3 x4 x5 σ hσ, hm]; exact (EReal.coe_strictMono.monotone.map_max).symm
  have hL : newL x0 x1 x2 x3 x4 x5 m l (ix2 (0 : Fin 1) (0 : Fin 1)) = ((Softmax.next S (foldMaxR σ) σ ε).2.1 : EReal) := by
    rw [newL_apply, hM, hm, hl]
    simp only [hσ, ← EReal.coe_sub, Ideal.exp_coe, ← EReal.coe_mul, ← coe_sum, ← EReal.coe_add]
    rfl
  have hA : ∀ f, newA x0 x1 x2 x3 x4 x5 m a (ix2 (0 : Fin 1) f) = ((Softmax.next S (foldMaxR σ) σ ε).2.2 f : EReal) := fun f => by
    rw [newA_apply, hM, hm, ha]
    simp only [hσ, hε, ← EReal.coe_sub, Ideal.exp_coe, ← EReal.coe_mul, ← coe_sum, ← EReal.coe_add]
    rfl
  refine ⟨hM, hL, hA, fun f hne => ?_⟩
  rw [outv_apply, hA, hL]
  exact div_coe_coe _ hne

end Point

end Cert.KernelIdeal.Step

end
-- ==== Proof.Loads.lean ====
/-
  One grid point's loads over real argument arrays, and the score they give.

  With every argument entry real, the block of encoder rows, the converted weights (a change of format is the identity on
  the extended reals), the projected decoder row (a finite sum of products of reals), the biases and the score vector are
  all real; so the tile's scores are the real scores of its 512 encoder rows.
-/
import proofs.«161566_j24464133718781_2_alg».proof.Proof.Blocks
import proofs.«161566_j24464133718781_2_alg».proof.Proof.Step
import proofs.«161566_j24464133718781_2_alg».proof.Proof.Spec
import proofs.«161566_j24464133718781_2_alg».proof.Proof.Lift

set_option maxRecDepth 16384

noncomputable section

namespace Cert.KernelIdeal.Loads

open Idealize.ShloMosaic Idealize.ShloMosaic.TcCoe Idealize.ShloMosaic.ValueIdx Idealize.SL.Sem
open Cert.KernelIdeal Cert.KernelIdeal.Gen Cert.KernelIdeal.Blocks Cert.KernelIdeal.Step Cert.Lift Cert.Spec

/-- The host's product of the decoder state [32, 1024] with the upper half of W [1024, 1024]. -/
abbrev D0 : DotDims S32x1024 S1024x1024 S32x1024 := dot_S32x1024_S1024x1024_S32x1024_1_0_0_1_n_n

/-- Entry (b, u) of the host's product is the sum over h of L[b,h] · R[h,u]. -/
theorem mm0 (L : FVec Ideal S32x1024 .f32) (R : FVec Ideal S1024x1024 .f32) (b : Fin 32) (u : Fin 1024) :
    Host.dotGeneral D0 none L R (ix2 b u) = ∑ h : Fin 1024, L (ix2 b h) * R (ix2 h u) := by
  simp only [Host.dotGeneral]
  rw [Ideal.dotGeneral_apply, ← Equiv.sum_comp (contrEquiv1 D0 1024 rfl rfl).symm]
  refine Finset.sum_congr rfl fun k _ => ?_
  have hk := contrEquiv1_symm_val D0 1024 rfl rfl k
  have el : D0.lhsIdx (ix2 b u) ((contrEquiv1 D0 1024 rfl rfl).symm k) = ix2 b k := funext fun a => Fin.ext (by
    match a with
    | ⟨0, _⟩ =>
      show (D0.lhsIdx (ix2 b u) _ 0).val = b.val
      unfold DotDims.lhsIdx
      rw [dif_neg (show ¬(0 : Fin S32x1024.rank) ∈ D0.lhsBatch by decide), dif_pos (show (0 : Fin S32x1024.rank) ∈ D0.lhsNonContracting by decide)]
      rfl
    | ⟨1, _⟩ => exact (D0.lhsIdx_val_of_single rfl _ _).trans hk)
  have er : D0.rhsIdx (ix2 b u) ((contrEquiv1 D0 1024 rfl rfl).symm k) = ix2 k u := funext fun a => Fin.ext (by
    match a with
    | ⟨0, _⟩ => exact (D0.rhsIdx_val_of_single rfl _ _).trans hk
    | ⟨1, _⟩ =>
      show (D0.rhsIdx (ix2 b u) _ 1).val = u.val
      unfold DotDims.rhsIdx
      rw [dif_neg (show ¬(1 : Fin S1024x1024.rank) ∈ D0.rhsBatch by decide), dif_pos (show (1 : Fin S1024x1024.rank) ∈ D0.rhsNonContracting by decide)]
      rfl)
  rw [el, er]

variable (m : (ℓ : Loc nD τ sig) → Buf (Elt Ideal) ℓ) (c : Dev nD)
variable (D : S32x1024.Idx → ℝ) (E : S32x2048x1024.Idx → ℝ) (W : S2048x1024.Idx → ℝ) (Ba : S1024.Idx → ℝ)
  (Va : S1024x1.Idx → ℝ) (Bv : S1.Idx → ℝ)
variable (H0 : m ((c : Thread nD τ).loc main_arg0) = fun i => ((D i : ℝ) : EReal))
  (H1 : m ((c : Thread nD τ).loc main_arg1) = fun i => ((E i : ℝ) : EReal))
  (H2 : m ((c : Thread nD τ).loc main_arg2) = fun i => ((W i : ℝ) : EReal))
  (H3 : m ((c : Thread nD τ).loc main_arg3) = fun i => ((Ba i : ℝ) : EReal))
  (H4 : m ((c : Thread nD τ).loc main_arg4) = fun i => ((Va i : ℝ) : EReal))
  (H5 : m ((c : Thread nD τ).loc main_arg5) = fun i => ((Bv i : ℝ) : EReal))

/-- The batch entry grid point t works on. -/
abbrev bt (t : Fin cfg0.N) : Fin 32 := ⟨t.val / 4, tdiv t⟩

include H1 in
theorem load1 (t : Fin cfg0.N) (p : Fin 512) (h : Fin 1024) :
    (iblk m c 1 t : Vec Ideal S1x512x1024 .f32) (ix3 (0 : Fin 1) p h) = (εt E (bt t) t.val p h : EReal) := by
  rw [iblk1_apply, H1]
  rfl

include H2 in
theorem load2 (t : Fin cfg0.N) (h u : Fin 1024) :
    (iblk m c 2 t : Vec Ideal S1024x1024 .bf16) (ix2 h u) = ((W (ix2 (lower h) u) : ℝ) : EReal) := by
  rw [iblk2_apply, V_v4, H2]
  exact extractStridedSlice_apply ![1024, 0] (fun i => ((W i : ℝ) : EReal)) slices_S2048x1024_S1024x1024_1024_0 (ix2 h u) (ix2 (lower h) u) (fun a => by
    match a with
    | ⟨0, _⟩ => rfl
    | ⟨1, _⟩ => show u.val = 0 + u.val; omega)

include H0 H2 in
theorem load0 (t : Fin cfg0.N) (u : Fin 1024) :
    (iblk m c 0 t : Vec Ideal S1x1x1024 .f32) (ix3 (0 : Fin 1) (0 : Fin 1) u) = ((dproj D W (bt t) u : ℝ) : EReal) := by
  rw [iblk0_apply, V_v3, H0, H2]
  show broadcastInDim S32x1x1024 ![0, 2] bcast_S32x1024_S32x1x1024_0_2 (Host.dotGeneral (F := Ideal) D0 none (fun i => ((D i : ℝ) : EReal))
    (extractStridedSlice S1024x1024 ![0, 0] (fun i => ((W i : ℝ) : EReal)) slices_S2048x1024_S1024x1024_0_0)) (ix3 (bt t) (0 : Fin 1) u)
      = ((dproj D W (bt t) u : ℝ) : EReal)
  rw [broadcastInDim_apply _ _ _ (ix3 (bt t) (0 : Fin 1) u) (ix2 (bt t) u) (fun a => by
    match a with
    | ⟨0, _⟩ => rfl
    | ⟨1, _⟩ => rfl)]
  rw [mm0]
  unfold dproj
  rw [coe_sum]
  refine Finset.sum_congr rfl fun h _ => ?_
  rw [EReal.coe_mul]
  congr 1
  exact extractStridedSlice_apply ![0, 0] (fun i => ((W i : ℝ) : EReal)) slices_S2048x1024_S1024x1024_0_0 (ix2 h u) (ix2 (upper h) u) (fun a => by
    match a with
    | ⟨0, _⟩ => show h.val = 0 + h.val; omega
    | ⟨1, _⟩ => show u.val = 0 + u.val; omega)

include H3 in
theorem load3 (t : Fin cfg0.N) (u : Fin 1024) : (iblk m c 3 t : Vec Ideal S1024 .f32) (ix1 u) = ((Ba (ix1 u) : ℝ) : EReal) := by
  rw [iblk3_apply, H3]
include H4 in
theorem load4 (t : Fin cfg0.N) (u : Fin 1024) :
    (iblk m c 4 t : Vec Ideal S1024x1 .f32) (ix2 u (0 : Fin 1)) = ((Va (ix2 u (0 : Fin 1)) : ℝ) : EReal) := by
  rw [iblk4_apply, H4]
include H5 in
theorem load5 (t : Fin cfg0.N) : (iblk m c 5 t : Vec Ideal S1 .f32) (ix1 (0 : Fin 1)) = ((Bv (ix1 (0 : Fin 1)) : ℝ) : EReal) := by
  rw [iblk5_apply, H5]

include H0 H1 H2 H3 H4 H5 in
/-- The tile's scores are the real scores of its rows. -/
theorem scores (t : Fin cfg0.N) (p : Fin 512) :
    k0_pay9 (iblk m c 1 t) (iblk m c 2 t) (iblk m c 0 t) (iblk m c 3 t) (iblk m c 4 t) (iblk m c 5 t) (ix2 p (0 : Fin 1))
      = (σt D E W Ba Va Bv (bt t) t.val p : EReal) := by
  rw [score_real (iblk m c 0 t) (iblk m c 1 t) (iblk m c 2 t) (iblk m c 3 t) (iblk m c 4 t) (iblk m c 5 t)
    (fun p h => εt E (bt t) t.val p h) (fun h u => W (ix2 (lower h) u)) (fun u => dproj D W (bt t) u) (fun u => Ba (ix1 u))
    (fun u => Va (ix2 u (0 : Fin 1))) (Bv (ix1 (0 : Fin 1)))
    (load1 m c E H1 t) (load2 m c W H2 t) (load0 m c D W H0 H2 t) (load3 m c Ba H3 t) (load4 m c Va H4 t) (load5 m c Bv H5 t) p]
  congr 1
  unfold tsc σt score eproj εt
  congr 1
  refine Finset.sum_congr rfl fun u _ => ?_
  rw [add_comm (∑ h : Fin 1024, _) (dproj D W (bt t) u)]

end Cert.KernelIdeal.Loads

end
-- ==== Proof.Invariant.lean ====
/-
  The running triple point by point.

  After grid point t (tile t mod 4 of batch entry t div 4) the three scratch buffers hold the running triple of the
  tile-by-tile recurrence after tiles 0 … t mod 4 of that batch entry: the first tile of a batch entry starts the recurrence
  afresh, every later tile continues from what the point before left; and the last tile's output block holds the weighted
  sums over the normaliser.
-/
import proofs.«161566_j24464133718781_2_alg».proof.Proof.Loads

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.KernelIdeal.Step Cert.KernelIdeal.Pieces Cert.KernelIdeal.Loads
open Cert.Lift Cert.Spec Cert.Softmax

variable (m : (ℓ : Loc nD τ sig) → Buf (Elt Ideal) ℓ) (c : Dev nD)
variable (D : S32x1024.Idx → ℝ) (E : S32x2048x1024.Idx → ℝ) (W : S2048x1024.Idx → ℝ) (Ba : S1024.Idx → ℝ)
  (Va : S1024x1.Idx → ℝ) (Bv : S1.Idx → ℝ)
variable (H0 : m ((c : Thread nD τ).loc main_arg0) = fun i => ((D i : ℝ) : EReal))
  (H1 : m ((c : Thread nD τ).loc main_arg1) = fun i => ((E i : ℝ) : EReal))
  (H2 : m ((c : Thread nD τ).loc main_arg2) = fun i => ((W i : ℝ) : EReal))
  (H3 : m ((c : Thread nD τ).loc main_arg3) = fun i => ((Ba i : ℝ) : EReal))
  (H4 : m ((c : Thread nD τ).loc main_arg4) = fun i => ((Va i : ℝ) : EReal))
  (H5 : m ((c : Thread nD τ).loc main_arg5) = fun i => ((Bv i : ℝ) : EReal))

theorem pay3_apply (v : FVec Ideal S1x1 .f32) (i : S1x1.Idx) : k0_pay3 v i = v i := by
  unfold k0_pay3; rw [shapeCast_self]

/-- Tile numbers are read modulo 4. -/
theorem σt_mod (b : Fin 32) (q : ℕ) : σt D E W Ba Va Bv b (q % 4) = σt D E W Ba Va Bv b q := by
  funext p; unfold σt; congr 1; exact Fin.ext (by show 512 * (q % 4 % 4) + p.val = 512 * (q % 4) + p.val; rw [Nat.mod_mod])
theorem εt_mod (b : Fin 32) (q : ℕ) : εt E b (q % 4) = εt E b q := by
  funext p f; unfold εt; congr 2; exact Fin.ext (by show 512 * (q % 4 % 4) + p.val = 512 * (q % 4) + p.val; rw [Nat.mod_mod])

/-- After point t the scratch holds the running triple after tiles 0 … t mod 4 of batch entry t div 4. -/
def Good (t : Fin cfg0.N) : Prop :=
  (outsAt0 m c t.val t.isLt).2.1 (ix2 (0 : Fin 1) (0 : Fin 1)) = ((kst D E W Ba Va Bv (bt t) (t.val % 4)).1 : EReal)
  ∧ (outsAt0 m c t.val t.isLt).2.2.1 (ix2 (0 : Fin 1) (0 : Fin 1)) = ((kst D E W Ba Va Bv (bt t) (t.val % 4)).2.1 : EReal)
  ∧ ∀ f : Fin 1024, (outsAt0 m c t.val t.isLt).2.2.2 (ix2 (0 : Fin 1) f) = ((kst D E W Ba Va Bv (bt t) (t.val % 4)).2.2 f : EReal)

include H0 H1 H2 H3 H4 H5

/-- The first tile of a batch entry. -/
theorem good_first (t : Fin cfg0.N) (h0 : t.val % 4 = 0) : Good m c D E W Ba Va Bv t := by
  have hN : t.val < 128 := lt_of_lt_of_eq t.isLt (show cfg0.N = 128 from N_0)
  have hσ : ∀ p, k0_pay9 (iblk m c 1 t) (iblk m c 2 t) (iblk m c 0 t) (iblk m c 3 t) (iblk m c 4 t) (iblk m c 5 t) (ix2 p (0 : Fin 1))
      = (σt D E W Ba Va Bv (bt t) 0 p : EReal) := fun p => by
    rw [scores m c D E W Ba Va Bv H0 H1 H2 H3 H4 H5 t p, ← σt_mod D E W Ba Va Bv (bt t) t.val, h0]
  have hε : ∀ p f, (iblk m c 1 t : Vec Ideal S1x512x1024 .f32) (ix3 (0 : Fin 1) p f) = (εt E (bt t) 0 p f : EReal) := fun p f => by
    rw [load1 m c E H1 t p f, ← εt_mod E (bt t) t.val, h0]
  obtain ⟨e1, e2, e3⟩ := first_step (iblk m c 0 t) (iblk m c 1 t) (iblk m c 2 t) (iblk m c 3 t) (iblk m c 4 t) (iblk m c 5 t)
    (σt D E W Ba Va Bv (bt t) 0) hσ (εt E (bt t) 0) hε
  unfold Good
  rw [h0, outsAt0_A m c t h0 (by omega)]
  dsimp only
  rw [sout0_A_0_eq, sout0_A_1_eq, sout0_A_2_eq, pay3_apply]
  exact ⟨e1, e2, e3⟩

/-- A later tile continues from what the point before left. -/
theorem good_next (t : Fin cfg0.N) (h0 : ¬t.val % 4 = 0)
    (G : Good m c D E W Ba Va Bv ⟨t.val - 1, Nat.lt_of_le_of_lt (Nat.sub_le _ _) t.isLt⟩) :
    Good m c D E W Ba Va Bv t
    ∧ (t.val % 4 = 3 → ∀ f : Fin 1024, (outsAt0 m c t.val t.isLt).1 (ix3 (0 : Fin 1) (0 : Fin 1) f) = ((kerOut D E W Ba Va Bv (bt t) f : ℝ) : EReal)) := by
  have hN : t.val < 128 := lt_of_lt_of_eq t.isLt (show cfg0.N = 128 from N_0)
  obtain ⟨j, hj⟩ : ∃ j, (t.val - 1) % 4 = j := ⟨_, rfl⟩
  have hq : t.val % 4 = j + 1 := by omega
  have hb : bt (⟨t.val - 1, Nat.lt_of_le_of_lt (Nat.sub_le _ _) t.isLt⟩ : Fin cfg0.N) = bt t := Fin.ext (by show (t.val - 1) / 4 = t.val / 4; omega)
  unfold Good at G
  rw [hb] at G
  dsimp only at G
  rw [hj] at G
  obtain ⟨g1, g2, g3⟩ := G
  have hσ : ∀ p, k0_pay9 (iblk m c 1 t) (iblk m c 2 t) (iblk m c 0 t) (iblk m c 3 t) (iblk m c 4 t) (iblk m c 5 t) (ix2 p (0 : Fin 1))
      = (σt D E W Ba Va Bv (bt t) (j + 1) p : EReal) := fun p => by
    rw [scores m c D E W Ba Va Bv H0 H1 H2 H3 H4 H5 t p, ← σt_mod D E W Ba Va Bv (bt t) t.val, hq]
  have hε : ∀ p f, (iblk m c 1 t : Vec Ideal S1x512x1024 .f32) (ix3 (0 : Fin 1) p f) = (εt E (bt t) (j + 1) p f : EReal) := fun p f => by
    rw [load1 m c E H1 t p f, ← εt_mod E (bt t) t.val, hq]
  obtain ⟨e1, e2, e3, e4⟩ := next_step (iblk m c 0 t) (iblk m c 1 t) (iblk m c 2 t) (iblk m c 3 t) (iblk m c 4 t) (iblk m c 5 t)
    (σt D E W Ba Va Bv (bt t) (j + 1)) hσ (εt E (bt t) (j + 1)) hε (kst D E W Ba Va Bv (bt t) j) _ _ _ g1 g2 g3
  have hk : kst D E W Ba Va Bv (bt t) (j + 1)
      = Softmax.next (kst D E W Ba Va Bv (bt t) j) (foldMaxR (σt D E W Ba Va Bv (bt t) (j + 1))) (σt D E W Ba Va Bv (bt t) (j + 1)) (εt E (bt t) (j + 1)) := rfl
  unfold Good
  rw [hq, hk]
  by_cases h1 : t.val % 4 = 3
  · refine ⟨?_, fun _ f => ?_⟩
    · rw [outsAt0_C m c t h0 h1]
      dsimp only
      rw [sout0_C_0_eq, sout0_C_1_eq, sout0_C_2_eq, pay3_apply]
      exact ⟨e1, e2, e3⟩
    · rw [outsAt0_C m c t h0 h1]
      dsimp only
      rw [out0_C_6_eq]
      have hj2 : j = 2 := by omega
      subst hj2
      have hpos := kst_pos D E W Ba Va Bv (bt t) 3
      rw [show kst D E W Ba Va Bv (bt t) 3 = kst D E W Ba Va Bv (bt t) (2 + 1) from rfl, hk] at hpos
      rw [e4 f (ne_of_gt hpos)]
      rfl
  · refine ⟨?_, fun h3 => absurd (hq.trans h3) h1⟩
    rw [outsAt0_B m c t h0 h1]
    dsimp only
    rw [sout0_B_0_eq, sout0_B_1_eq, sout0_B_2_eq, pay3_apply]
    exact ⟨e1, e2, e3⟩

/-- Every point: by induction on the point. -/
theorem good_all : ∀ (n : ℕ) (h : n < cfg0.N), Good m c D E W Ba Va Bv ⟨n, h⟩
  | 0, h => good_first m c D E W Ba Va Bv H0 H1 H2 H3 H4 H5 ⟨0, h⟩ rfl
  | n + 1, h => by
    by_cases h0 : (n + 1) % 4 = 0
    · exact good_first m c D E W Ba Va Bv H0 H1 H2 H3 H4 H5 ⟨n + 1, h⟩ h0
    · exact (good_next m c D E W Ba Va Bv H0 H1 H2 H3 H4 H5 ⟨n + 1, h⟩ h0 (good_all n (Nat.lt_of_succ_lt h))).1

/-- The last tile of a batch entry leaves the tile-by-tile spelling of the result in the output block. -/
theorem out_last (t : Fin cfg0.N) (h3 : t.val % 4 = 3) (f : Fin 1024) :
    (outsAt0 m c t.val t.isLt).1 (ix3 (0 : Fin 1) (0 : Fin 1) f) = ((kerOut D E W Ba Va Bv (bt t) f : ℝ) : EReal) :=
  (good_next m c D E W Ba Va Bv H0 H1 H2 H3 H4 H5 t (by omega) (good_all m c D E W Ba Va Bv H0 H1 H2 H3 H4 H5 (t.val - 1) _)).2 h3 f

end Cert.KernelIdeal.Inv

end
-- ==== Proof.KernelResult.lean ====
/-
  The kernel's result array.

  The region's output [32, 1, 1024] is written back once per batch entry, by that entry's last tile, with the
  tile-by-tile spelling of the softmax-weighted sum; the 32 blocks cover the array. The host's reshape after the region
  drops the unit axis. So the result [32, 1024] at (b, f) is the weighted sum for batch entry b and feature f, which is
  also the reference's spelling of it.
-/
import proofs.«161566_j24464133718781_2_alg».proof.Proof.Invariant
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Idealize.ShloMosaic.StableHlo
open Cert.KernelIdeal Cert.KernelIdeal.Gen Cert.KernelIdeal.Blocks Cert.KernelIdeal.Loads Cert.KernelIdeal.Inv
open Cert.Lift Cert.Spec

variable (m : (ℓ : Loc nD τ sig) → Buf (Elt Ideal) ℓ) (c : Dev nD)
variable (D : S32x1024.Idx → ℝ) (E : S32x2048x1024.Idx → ℝ) (W : S2048x1024.Idx → ℝ) (Ba : S1024.Idx → ℝ)
  (Va : S1024x1.Idx → ℝ) (Bv : S1.Idx → ℝ)
variable (H0 : m ((c : Thread nD τ).loc main_arg0) = fun i => ((D i : ℝ) : EReal))
  (H1 : m ((c : Thread nD τ).loc main_arg1) = fun i => ((E i : ℝ) : EReal))
  (H2 : m ((c : Thread nD τ).loc main_arg2) = fun i => ((W i : ℝ) : EReal))
  (H3 : m ((c : Thread nD τ).loc main_arg3) = fun i => ((Ba i : ℝ) : EReal))
  (H4 : m ((c : Thread nD τ).loc main_arg4) = fun i => ((Va i : ℝ) : EReal))
  (H5 : m ((c : Thread nD τ).loc main_arg5) = fun i => ((Bv i : ℝ) : EReal))

/-- The region's output array: at (b, 0, f) the weighted sum for batch entry b and feature f. -/
def regionOut : S32x1x1024.Idx → EReal := fun i => ((kerOut D E W Ba Va Bv (i 0) (i 2) : ℝ) : EReal)

/-- The result array [32, 1024]. -/
def result : S32x1024.Idx → EReal := fun i => ((refOut D E W Ba Va Bv (i 0) (i 1) : ℝ) : EReal)

include H0 H1 H2 H3 H4 H5

/-- What a batch entry's last tile writes back is its block of `regionOut`. -/
theorem flushed_eq (t : Fin cfg0.N) (hf : (cfg0.win 6).flush t = true) :
    (dats m 0 c).flushed 6 t = ((cfg0.win 6).blk t).view.read (Elt Ideal) (regionOut D E W Ba Va Bv) := by
  have h3 : t.val % 4 = 3 := (flush0_6 t).mp hf
  show (cfg0.win 6).cut (grid0.coords t) ((dats m 0 c).after 6 t) = _
  rw [after0_6]
  funext j
  obtain ⟨f, rfl⟩ : ∃ f : Fin 1024, j = (ix3 (0 : Fin 1) (0 : Fin 1) f : S1x1x1024.Idx) :=
    ⟨j 2, funext fun a => Fin.ext (by
      match a with
      | ⟨0, _⟩ => show (j 0).val = 0; have : (j 0).val < 1 := (j 0).isLt; omega
      | ⟨1, _⟩ => show (j 1).val = 0; have : (j 1).val < 1 := (j 1).isLt; omega
      | ⟨2, _⟩ => rfl)⟩
  show (outsAt0 m c t.val t.isLt).1 (ix3 (0 : Fin 1) (0 : Fin 1) f) = regionOut D E W Ba Va Bv (((cfg0.win 6).blk t).view.emb (ix3 (0 : Fin 1) (0 : Fin 1) f))
  rw [out_last m c D E W Ba Va Bv H0 H1 H2 H3 H4 H5 t h3 f]
  unfold regionOut
  have e0 : (((cfg0.win 6).blk t).view.emb (ix3 (0 : Fin 1) (0 : Fin 1) f)) 0 = bt t := Fin.ext (by
    show win0_6.index t 0 * 1 + 1 * 0 = t.val / 4
    rw [(idx6 t).1]; omega)
  have e2 : (((cfg0.win 6).blk t).view.emb (ix3 (0 : Fin 1) (0 : Fin 1) f)) 2 = f := Fin.ext (by
    show win0_6.index t 2 * 1024 + 1 * f.val = f.val
    rw [(idx6 t).2.2]; omega)
  rw [e0, e2]

/-- The 32 blocks cover the region's output array. -/
theorem final : (dats m 0 c).arrAt 6 cfg0.N = regionOut D E W Ba Va Bv :=
  (dats m 0 c).arrAt_eq_of_cover 6 (regionOut D E W Ba Va Bv) (fun t hf => flushed_eq m c D E W Ba Va Bv H0 H1 H2 H3 H4 H5 t hf) fun i => by
    have hi0 : (i 0).val < 32 := (i 0).isLt
    have hi1 : (i 1).val < 1 := (i 1).isLt
    have hi2 : (i 2).val < 1024 := (i 2).isLt
    have hN : cfg0.N = 128 := N_0
    let t0 : Fin cfg0.N := ⟨4 * (i 0).val + 3, by omega⟩
    refine ⟨t0, (flush0_6 t0).mpr (by show (4 * (i 0).val + 3) % 4 = 3; omega), ?_⟩
    show i ∈ ((View.whole main_v5).slice (win0_6.rect t0)).set
    rw [View.set_slice_whole, Rect.mem_set_unit]
    obtain ⟨q0, q1, q2⟩ := idx6 t0
    intro a
    match a with
    | ⟨0, _⟩ =>
      show win0_6.index t0 0 * 1 ≤ (i 0).val ∧ (i 0).val < win0_6.index t0 0 * 1 + 1
      rw [q0]; show (4 * (i 0).val + 3) / 4 * 1 ≤ (i 0).val ∧ (i 0).val < (4 * (i 0).val + 3) / 4 * 1 + 1; omega
    | ⟨1, _⟩ =>
      show win0_6.index t0 1 * 1 ≤ (i 1).val ∧ (i 1).val < win0_6.index t0 1 * 1 + 1
      rw [q1]; omega
    | ⟨2, _⟩ =>
      show win0_6.index t0 2 * 1024 ≤ (i 2).val ∧ (i 2).val < win0_6.index t0 2 * 1024 + 1024
      rw [q2]; omega

/-- After the host's reshape the result array is `result`. -/
theorem tail_eq :
    Pipeline.afterTail₀ cfgs (dats m) 0 (V0 m) [hostOps1] c main_v6 = result D E W Ba Va Bv := by
  unfold Pipeline.afterTail₀
  show StableHlo.after hostOps1 _ (Proc.devRef .tc main_v6) = _
  after_results
  funext i
  obtain ⟨b, f, rfl⟩ : ∃ (b : Fin 32) (f : Fin 1024), i = (ix2 b f : S32x1024.Idx) := ⟨i 0, i 1, eq_ix2 i⟩
  show shapeCast S32x1024 (Pipeline.withArrays (cfgs 0).spec c (V0 m c) (fun w => (dats m 0 c).arrAt w (cfgs 0).N) (Proc.devRef .tc main_v5))
    shapeCasts_S32x1x1024_S32x1024 (ix2 b f) = _
  have e : Pipeline.withArrays (cfgs 0).spec c (V0 m c) (fun w => (dats m 0 c).arrAt w (cfgs 0).N) (Proc.devRef .tc main_v5)
      = regionOut D E W Ba Va Bv := (Pipeline.withArrays_arr spec0 launch0.win.arr_inj c _ _ 6).trans (final m c D E W Ba Va Bv H0 H1 H2 H3 H4 H5)
  rw [e, shapeCast_apply (regionOut D E W Ba Va Bv) _ (ix2 b f) (ix3 b (0 : Fin 1) f) (by
    rw [Shape.rowMajor_val_three, Shape.rowMajor_val_two]
    show (b.val * 1 + 0) * 1024 + f.val = b.val * 1024 + f.val
    omega)]
  show ((kerOut D E W Ba Va Bv b f : ℝ) : EReal) = ((refOut D E W Ba Va Bv b f : ℝ) : EReal)
  rw [kerOut_eq_refOut]

omit H0 H1 H2 H3 H4 H5 in
/-- The kernel's run, read: the result array is `result` of the (real) argument arrays, and the arguments are unchanged. -/
theorem run (m : (ℓ : Loc nD τ sig) → Buf (Elt Ideal) ℓ) (ρ : Dev nD → PrngReg)
    (D : Dev nD → S32x1024.Idx → ℝ) (E : Dev nD → S32x2048x1024.Idx → ℝ) (W : Dev nD → S2048x1024.Idx → ℝ)
    (Ba : Dev nD → S1024.Idx → ℝ) (Va : Dev nD → S1024x1.Idx → ℝ) (Bv : Dev nD → S1.Idx → ℝ)
    (H0 : ∀ c : Dev nD, m ((c : Thread nD τ).loc main_arg0) = fun i => ((D c i : ℝ) : EReal))
    (H1 : ∀ c : Dev nD, m ((c : Thread nD τ).loc main_arg1) = fun i => ((E c i : ℝ) : EReal))
    (H2 : ∀ c : Dev nD, m ((c : Thread nD τ).loc main_arg2) = fun i => ((W c i : ℝ) : EReal))
    (H3 : ∀ c : Dev nD, m ((c : Thread nD τ).loc main_arg3) = fun i => ((Ba c i : ℝ) : EReal))
    (H4 : ∀ c : Dev nD, m ((c : Thread nD τ).loc main_arg4) = fun i => ((Va c i : ℝ) : EReal))
    (H5 : ∀ c : Dev nD, m ((c : Thread nD τ).loc main_arg5) = fun i => ((Bv c i : ℝ) : EReal)) :
    θ_run defs (onTc (τ := τ) (main (F := Ideal))) ⟨m, fun _ => 0, ρ⟩ (fun r => ∀ c : Dev nD,
      r.2.mem ((c.tc : Thread nD τ).loc main_v6) = result (D c) (E c) (W c) (Ba c) (Va c) (Bv c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v6 (Pipeline.mem_restRefs_of main_v6 (by decide) (by decide))).trans
        (tail_eq m c (D c) (E c) (W c) (Ba c) (Va c) (Bv c) (H0 c) (H1 c) (H2 c) (H3 c) (H4 c) (H5 c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Result

end
-- ==== Proof.lean ====
/-
  Additive attention: the tile-by-tile kernel against the whole-array reference, over the extended reals.

  For every batch entry the kernel walks the 2048 encoder rows in four tiles of 512, keeping a running maximum m of the
  scores, a normaliser l = ∑ exp (score - m) and weighted sums a = ∑ exp (score - m) · row; a new tile rescales l and a by
  exp (m_old - m_new) and adds its own terms, and the last tile stores a / l. The reference computes all scores at once,
  subtracts their maximum, normalises each weight by the sum of the weights and sums the weighted rows.

  Under the precondition every argument entry is a real, so every score is a real, every maximum (of finitely many reals)
  is a real, every weight exp (·) is a positive real and the normaliser is a positive real: nothing leaves the reals, and
  the first tile's exp (-∞ - m) = 0 makes the reset values vanish. In the reals the recurrence keeps
  l = ∑ exp (score - m) and a = ∑ exp (score - m) · row over the rows seen so far, because
  exp (m_old - m_new) · exp (s - m_old) = exp (s - m_new); and a / l does not depend on the shift m at all, because a
  common factor exp (-m) cancels. So both programs compute ∑_s softmax(score)_s · row_s.

  The three frames are the generated ones (the reference's frame is its generated run with the result dropped); the
  idealization rewrote nothing, so its conjunct is trivial.
-/
import proofs.«161566_j24464133718781_2_alg».proof.Defs
import proofs.«161566_j24464133718781_2_alg».proof.Proof.Gen.Kernel
import proofs.«161566_j24464133718781_2_alg».proof.Proof.Gen.Kernel.Skeleton
import proofs.«161566_j24464133718781_2_alg».proof.Proof.Gen.Kernel.Launch
import proofs.«161566_j24464133718781_2_alg».proof.Proof.Gen.Kernel.Points
import proofs.«161566_j24464133718781_2_alg».proof.Proof.Gen.Kernel.Frame
import proofs.«161566_j24464133718781_2_alg».proof.Proof.Gen.KernelIdeal
import proofs.«161566_j24464133718781_2_alg».proof.Proof.Gen.KernelIdeal.Skeleton
import proofs.«161566_j24464133718781_2_alg».proof.Proof.Gen.KernelIdeal.Launch
import proofs.«161566_j24464133718781_2_alg».proof.Proof.Gen.KernelIdeal.Points
import proofs.«161566_j24464133718781_2_alg».proof.Proof.Gen.KernelIdeal.Frame
import proofs.«161566_j24464133718781_2_alg».proof.Proof.Gen.ReferenceIdeal
import proofs.«161566_j24464133718781_2_alg».proof.Proof.Gen.Pre_finite_inputs
import proofs.«161566_j24464133718781_2_alg».proof.Proof.Gen.ReferenceIdeal.Run
import proofs.«161566_j24464133718781_2_alg».proof.Proof.Gen.ReferenceIdeal.Read
import proofs.«161566_j24464133718781_2_alg».proof.Proof.Finite
import proofs.«161566_j24464133718781_2_alg».proof.Proof.RefValue
import proofs.«161566_j24464133718781_2_alg».proof.Proof.KernelResult
import Idealize.ShloMosaic.Adequacy
import Idealize.ShloMosaic.Init

noncomputable section

namespace Cert.Proof

open Idealize.ShloMosaic Idealize.ShloMosaic.ValueIdx Idealize.SL.Sem

/-- The kernel and the reference, from memories agreeing on real arguments, end with the same result array: the
    softmax-weighted sum of the encoder rows, batch entry by batch entry. -/
theorem algebraic : Cert.algebraic_KernelIdeal_ReferenceIdeal := by
  intro m ρ m' ρ' hpre hagree
  have hfin := fun c => Cert.Finite.reals_of_pre _ _ _ _ _ _ (hpre c)
  choose D hD using fun c => (hfin c).1
  choose E hE using fun c => (hfin c).2.1
  choose W hW using fun c => (hfin c).2.2.1
  choose Ba hBa using fun c => (hfin c).2.2.2.1
  choose Va hVa using fun c => (hfin c).2.2.2.2.1
  choose Bv hBv using fun c => (hfin c).2.2.2.2.2
  have H0 := fun c => funext (hD c)
  have H1 := fun c => funext (hE c)
  have H2 := fun c => funext (hW c)
  have H3 := fun c => funext (hBa c)
  have H4 := fun c => funext (hVa c)
  have H5 := fun c => funext (hBv c)
  refine ⟨fun c => Cert.KernelIdeal.Result.result (D c) (E c) (W c) (Ba c) (Va c) (Bv c),
    Cert.KernelIdeal.Result.run m ρ D E W Ba Va Bv H0 H1 H2 H3 H4 H5, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2.1, (hagree c).2.2.2.2.2, H0 c, H1 c, H2 c, H3 c, H4 c, H5 c]
  funext i
  obtain ⟨b, f, rfl⟩ : ∃ (b : Fin 32) (f : Fin 1024), i = (ix2 b f : Cert.ReferenceIdeal.S32x1024.Idx) := ⟨i 0, i 1, eq_ix2 i⟩
  exact Cert.ReferenceIdeal.RefValue.out_eq (D c) (E c) (W c) (Ba c) (Va c) (Bv c) b f

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
